-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 89
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x1, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x1, .f32⟩
  | .hbm, ⟨82, _⟩ => ⟨S1700000x1, .f32⟩
  | .hbm, ⟨83, _⟩ => ⟨S_, .f32⟩
  | .hbm, ⟨84, _⟩ => ⟨S100000x1, .f32⟩
  | .hbm, ⟨85, _⟩ => ⟨S1700000x1, .i32⟩
  | .hbm, ⟨86, _⟩ => ⟨S100000x1, .f32⟩
  | .hbm, ⟨87, _⟩ => ⟨S1x1, .f32⟩
  | .hbm, ⟨88, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x1, .f32⟩
  | .local _ .vmem, ⟨13, _⟩ => ⟨S10000x1, .f32⟩
  | .local _ .vmem, ⟨14, _⟩ => ⟨S10000x1, .f32⟩
  | .local _ .vmem, ⟨15, _⟩ => ⟨S10000x1, .f32⟩
  | .local _ .vmem, ⟨16, _⟩ => ⟨S10000x1, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x1_S10000x1_1_0_0_1_n_n_wf : DotDims.WF S10000x64 S64x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x1.size a ≤ S100000x1.size a
  hwx3_0 : ∀ i : grid3.Coords, EltTy.bits .f32 = 32 ∨ (Rect.block (s := S100000x1) S10000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S10000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .i1⟩
  | .hbm, ⟨75, _⟩ => ⟨S_, .f32⟩
  | .hbm, ⟨76, _⟩ => ⟨S100000x64, .f32⟩
  | .hbm, ⟨77, _⟩ => ⟨S100000x64, .i1⟩
  | .hbm, ⟨78, _⟩ => ⟨S_, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x1, .f32⟩
  | .hbm, ⟨88, _⟩ => ⟨S1700000x1, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x1, .f32⟩
  | .hbm, ⟨98, _⟩ => ⟨S1700000x1, .f32⟩
  | .hbm, ⟨99, _⟩ => ⟨S_, .f32⟩
  | .hbm, ⟨100, _⟩ => ⟨S100000x1, .f32⟩
  | .hbm, ⟨101, _⟩ => ⟨S1700000x1, .i32⟩
  | .hbm, ⟨102, _⟩ => ⟨S100000x1, .f32⟩
  | .hbm, ⟨103, _⟩ => ⟨S1x1, .f32⟩
  | .hbm, ⟨104, _⟩ => ⟨S100000x1, .f32⟩
  | .hbm, ⟨105, _⟩ => ⟨S100000x1, .f32⟩
  | .hbm, ⟨106, _⟩ => ⟨S100000x1, .f32⟩
  | .hbm, ⟨107, _⟩ => ⟨S100000x1, .f32⟩
  | .hbm, ⟨108, _⟩ => ⟨S_, .f32⟩
  | .hbm, ⟨109, _⟩ => ⟨S100000x1, .f32⟩
  | .hbm, ⟨110, _⟩ => ⟨S100000x1, .f32⟩
  | .hbm, ⟨111, _⟩ => ⟨S_, .f32⟩
  | .hbm, ⟨112, _⟩ => ⟨S100000x1, .f32⟩
  | .hbm, ⟨113, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_cst_1 : Ref sig .tc := ⟨.hbm, 78, rfl⟩
abbrev main_call1_call0_v0 : Ref sig .tc := ⟨.hbm, 79, rfl⟩
abbrev main_call1_call0_v1 : Ref sig .tc := ⟨.hbm, 80, rfl⟩
abbrev main_call1_v4 : Ref sig .tc := ⟨.hbm, 81, rfl⟩
abbrev main_call1_v5 : Ref sig .tc := ⟨.hbm, 82, rfl⟩
abbrev main_call1_cst_2 : Ref sig .tc := ⟨.hbm, 83, rfl⟩
abbrev main_call1_v6 : Ref sig .tc := ⟨.hbm, 84, rfl⟩
abbrev main_call1_v7 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_10 : Ref sig .tc := ⟨.hbm, 89, rfl⟩
abbrev main_v54 : Ref sig .tc := ⟨.hbm, 90, rfl⟩
abbrev main_v55 : Ref sig .tc := ⟨.hbm, 91, rfl⟩
abbrev main_c_11 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_12 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_13 : Ref sig .tc := ⟨.hbm, 108, rfl⟩
abbrev main_v70 : Ref sig .tc := ⟨.hbm, 109, rfl⟩
abbrev main_v71 : Ref sig .tc := ⟨.hbm, 110, rfl⟩
abbrev main_cst_14 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelRun.lean ====
/-
  The idealized kernel's run with EVERY buffer read at the end: the program is four pipelined regions among stretches
  of host operations, and the generated frame folds the buffer contents through them (the host stretches by their
  operations' results, each region by what its write-backs leave in its arrays). Here the same launch over the same
  segments is posted with the whole final valuation, so that the result buffer can be read beside the arguments.
-/
import proofs.«169478_j1786706395263_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every final state has each unscoped buffer
    at the contents the fold through the segments ends with. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

end Cert.KernelIdeal.KRun

end
-- ==== Proof.RefRun.lean ====
/-
  The reference program's @main as ONE straight line of host operations: the two windows the printer cut it into are
  joined, and the module-local functions it calls (the select behind `jnp.where`, and `elu`, which itself calls two
  selects) are listed inline at their call sites over each call's own buffers — unfolding a call is the compiler's
  inlining. Every weakly fair execution then terminates with each buffer at the fold of the operations' results over
  the launch contents.
-/
import proofs.«169478_j1786706395263_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 107 operations, in order, the called functions' operations at their call sites. -/
abbrev ops : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x0DA24260#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v11 main_v14 main_v15 (maximumf : (⟨S100000, .f32⟩ : BufTy).Contents (Elt F) → (⟨S100000, .f32⟩ : BufTy).Contents (Elt F) → (⟨S100000, .f32⟩ : BufTy).Contents (Elt F)),
    StableHlo.unary main_v15 main_v16 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S100000 ![] bcast_S_S100000),
    StableHlo.TRef.ternary (.of main_v13) (.of main_v16) main_call0.v1 main_call0.v2 select,
    StableHlo.nullary main_c (constantI S_ 32 0#32),
    StableHlo.unary main_c main_v18 (broadcastInDim S1700000 ![] bcast_S_S1700000 : (⟨S_, .i32⟩ : BufTy).Contents (Elt F) → (⟨S1700000, .i32⟩ : BufTy).Contents (Elt F)),
    StableHlo.binary main_v3 main_v18 main_v19 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v20 (broadcastInDim S1700000 ![] bcast_S_S1700000 : (⟨S_, .i32⟩ : BufTy).Contents (Elt F) → (⟨S1700000, .i32⟩ : BufTy).Contents (Elt F)),
    StableHlo.binary main_v3 main_v20 main_v21 (addi : (⟨S1700000, .i32⟩ : BufTy).Contents (Elt F) → (⟨S1700000, .i32⟩ : BufTy).Contents (Elt F) → (⟨S1700000, .i32⟩ : BufTy).Contents (Elt F)),
    StableHlo.ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v22 main_v23 (broadcastInDim S1700000x1 ![0] bcast_S1700000_S1700000x1_0 : (⟨S1700000, .i32⟩ : BufTy).Contents (Elt F) → (⟨S1700000x1, .i32⟩ : BufTy).Contents (Elt F)),
    StableHlo.binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v8 main_v25 (mulf : (⟨S1700000, .f32⟩ : BufTy).Contents (Elt F) → (⟨S1700000, .f32⟩ : BufTy).Contents (Elt F) → (⟨S1700000, .f32⟩ : BufTy).Contents (Elt F)),
    StableHlo.nullary main_c_5 (constantI S_ 32 0#32),
    StableHlo.unary main_c_5 main_v26 (broadcastInDim S1700000 ![] bcast_S_S1700000 : (⟨S_, .i32⟩ : BufTy).Contents (Elt F) → (⟨S1700000, .i32⟩ : BufTy).Contents (Elt F)),
    StableHlo.binary main_v6 main_v26 main_v27 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v28 (broadcastInDim S1700000 ![] bcast_S_S1700000 : (⟨S_, .i32⟩ : BufTy).Contents (Elt F) → (⟨S1700000, .i32⟩ : BufTy).Contents (Elt F)),
    StableHlo.binary main_v6 main_v28 main_v29 (addi : (⟨S1700000, .i32⟩ : BufTy).Contents (Elt F) → (⟨S1700000, .i32⟩ : BufTy).Contents (Elt F) → (⟨S1700000, .i32⟩ : BufTy).Contents (Elt F)),
    StableHlo.ternary main_v27 main_v29 main_v6 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v30 main_v31 (broadcastInDim S1700000x1 ![0] bcast_S1700000_S1700000x1_0 : (⟨S1700000, .i32⟩ : BufTy).Contents (Elt F) → (⟨S1700000x1, .i32⟩ : BufTy).Contents (Elt F)),
    StableHlo.binary main_v17 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v32 main_v33 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v34 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_v33 main_v35 (broadcastInDim S1700000x1 ![0] bcast_S1700000_S1700000x1_0 : (⟨S1700000, .f32⟩ : BufTy).Contents (Elt F) → (⟨S1700000x1, .f32⟩ : BufTy).Contents (Elt F)),
    StableHlo.nullary main_c_7 (constantI S_ 32 0#32),
    StableHlo.unary main_c_7 main_v36 (broadcastInDim S1700000 ![] bcast_S_S1700000 : (⟨S_, .i32⟩ : BufTy).Contents (Elt F) → (⟨S1700000, .i32⟩ : BufTy).Contents (Elt F)),
    StableHlo.binary main_v3 main_v36 main_v37 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v38 (broadcastInDim S1700000 ![] bcast_S_S1700000 : (⟨S_, .i32⟩ : BufTy).Contents (Elt F) → (⟨S1700000, .i32⟩ : BufTy).Contents (Elt F)),
    StableHlo.binary main_v3 main_v38 main_v39 (addi : (⟨S1700000, .i32⟩ : BufTy).Contents (Elt F) → (⟨S1700000, .i32⟩ : BufTy).Contents (Elt F) → (⟨S1700000, .i32⟩ : BufTy).Contents (Elt F)),
    StableHlo.ternary main_v37 main_v39 main_v3 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v40 main_v41 (broadcastInDim S1700000x1 ![0] bcast_S1700000_S1700000x1_0 : (⟨S1700000, .i32⟩ : BufTy).Contents (Elt F) → (⟨S1700000x1, .i32⟩ : BufTy).Contents (Elt F)),
    StableHlo.binary main_v34 main_v41 main_v42 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v35 main_v43 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v43 main_v42 main_v44 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v45 (broadcastInDim S100000x64 ![] bcast_S_S100000x64 : (⟨S_, .f32⟩ : BufTy).Contents (Elt F) → (⟨S100000x64, .f32⟩ : BufTy).Contents (Elt F)),
    StableHlo.unary main_v6 main_v46 (broadcastInDim S1700000x1 ![0] bcast_S1700000_S1700000x1_0 : (⟨S1700000, .i32⟩ : BufTy).Contents (Elt F) → (⟨S1700000x1, .i32⟩ : BufTy).Contents (Elt F)),
    StableHlo.ternary main_v45 main_v46 main_v44 main_v47 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg4 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v50) main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary (.of main_v50) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 (.of main_v50) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 (.of main_v50) main_call1.v7 main_call1.call1.v0 select,
    StableHlo.binary main_v51 main_arg5 main_v52 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_v33 main_v53 (broadcastInDim S1700000x1 ![0] bcast_S1700000_S1700000x1_0 : (⟨S1700000, .f32⟩ : BufTy).Contents (Elt F) → (⟨S1700000x1, .f32⟩ : BufTy).Contents (Elt F)),
    StableHlo.nullary main_c_10 (constantI S_ 32 0#32),
    StableHlo.unary main_c_10 main_v54 (broadcastInDim S1700000 ![] bcast_S_S1700000 : (⟨S_, .i32⟩ : BufTy).Contents (Elt F) → (⟨S1700000, .i32⟩ : BufTy).Contents (Elt F)),
    StableHlo.binary main_v3 main_v54 main_v55 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v56 (broadcastInDim S1700000 ![] bcast_S_S1700000 : (⟨S_, .i32⟩ : BufTy).Contents (Elt F) → (⟨S1700000, .i32⟩ : BufTy).Contents (Elt F)),
    StableHlo.binary main_v3 main_v56 main_v57 (addi : (⟨S1700000, .i32⟩ : BufTy).Contents (Elt F) → (⟨S1700000, .i32⟩ : BufTy).Contents (Elt F) → (⟨S1700000, .i32⟩ : BufTy).Contents (Elt F)),
    StableHlo.ternary main_v55 main_v57 main_v3 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v58 main_v59 (broadcastInDim S1700000x1 ![0] bcast_S1700000_S1700000x1_0 : (⟨S1700000, .i32⟩ : BufTy).Contents (Elt F) → (⟨S1700000x1, .i32⟩ : BufTy).Contents (Elt F)),
    StableHlo.binary main_v52 main_v59 main_v60 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    StableHlo.binary main_v53 main_v60 main_v61 (mulf : (⟨S1700000x1, .f32⟩ : BufTy).Contents (Elt F) → (⟨S1700000x1, .f32⟩ : BufTy).Contents (Elt F) → (⟨S1700000x1, .f32⟩ : BufTy).Contents (Elt F)),
    StableHlo.nullary main_cst_12 (constant S_ .f32 0x00000000#32),
    StableHlo.unary main_cst_12 main_v62 (broadcastInDim S100000x1 ![] bcast_S_S100000x1 : (⟨S_, .f32⟩ : BufTy).Contents (Elt F) → (⟨S100000x1, .f32⟩ : BufTy).Contents (Elt F)),
    StableHlo.unary main_v6 main_v63 (broadcastInDim S1700000x1 ![0] bcast_S1700000_S1700000x1_0 : (⟨S1700000, .i32⟩ : BufTy).Contents (Elt F) → (⟨S1700000x1, .i32⟩ : BufTy).Contents (Elt F)),
    StableHlo.ternary main_v62 main_v63 main_v61 main_v64 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)),
    StableHlo.unary main_arg6 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S100000x1 ![0, 1] bcast_S1x1_S100000x1_0_1 : (⟨S1x1, .f32⟩ : BufTy).Contents (Elt F) → (⟨S100000x1, .f32⟩ : BufTy).Contents (Elt F)),
    StableHlo.binary main_v64 main_v66 main_v67 (addf : (⟨S100000x1, .f32⟩ : BufTy).Contents (Elt F) → (⟨S100000x1, .f32⟩ : BufTy).Contents (Elt F) → (⟨S100000x1, .f32⟩ : BufTy).Contents (Elt F)),
    StableHlo.unary main_v67 main_v68 (Host.negf : (⟨S100000x1, .f32⟩ : BufTy).Contents (Elt F) → (⟨S100000x1, .f32⟩ : BufTy).Contents (Elt F)),
    StableHlo.unary main_v68 main_v69 (Host.exp : (⟨S100000x1, .f32⟩ : BufTy).Contents (Elt F) → (⟨S100000x1, .f32⟩ : BufTy).Contents (Elt F)),
    StableHlo.nullary main_cst_13 (constant S_ .f32 0x3F800000#32),
    StableHlo.unary main_cst_13 main_v70 (broadcastInDim S100000x1 ![] bcast_S_S100000x1 : (⟨S_, .f32⟩ : BufTy).Contents (Elt F) → (⟨S100000x1, .f32⟩ : BufTy).Contents (Elt F)),
    StableHlo.binary main_v70 main_v69 main_v71 (addf : (⟨S100000x1, .f32⟩ : BufTy).Contents (Elt F) → (⟨S100000x1, .f32⟩ : BufTy).Contents (Elt F) → (⟨S100000x1, .f32⟩ : BufTy).Contents (Elt F)),
    StableHlo.nullary main_cst_14 (constant S_ .f32 0x3F800000#32),
    StableHlo.unary main_cst_14 main_v72 (broadcastInDim S100000x1 ![] bcast_S_S100000x1 : (⟨S_, .f32⟩ : BufTy).Contents (Elt F) → (⟨S100000x1, .f32⟩ : BufTy).Contents (Elt F)),
    StableHlo.binary main_v72 main_v71 main_v73 (Host.divf : (⟨S100000x1, .f32⟩ : BufTy).Contents (Elt F) → (⟨S100000x1, .f32⟩ : BufTy).Contents (Elt F) → (⟨S100000x1, .f32⟩ : BufTy).Contents (Elt F)) ]

set_option maxRecDepth 8192 in
set_option maxHeartbeats 4000000 in
/-- @main is that straight line: the windows and the functions' definitions unfolded, both sides are one chain of
    host steps once sequencing is reassociated. -/
theorem main_eq (c : Dev nD) : main (F := F) c = seq ops := by
  simp only [main, main_part0, main_part1, fn_where.body, fn_where_0.body, fn_where_1.body, fn_elu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., reshape_bufs_sub .., binary_bufs_sub .., unary_bufs_sub .., reshape_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefKept.lean ====
/-
  No operation of the reference's line writes an argument array: folding the whole line leaves each argument's contents
  as they were (every operation's result buffer differs from the argument's, decided reference by reference).
-/
import proofs.«169478_j1786706395263_1_alg».proof.Proof.RefRun
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxHeartbeats 2000000 in
theorem kept_arg0 : after (ops (F := F)) V (Proc.devRef .tc main_arg0) = V (Proc.devRef .tc main_arg0) := by
  dsimp only [ops]; after_results_simp <;> rfl
set_option maxHeartbeats 2000000 in
theorem kept_arg1 : after (ops (F := F)) V (Proc.devRef .tc main_arg1) = V (Proc.devRef .tc main_arg1) := by
  dsimp only [ops]; after_results_simp <;> rfl
set_option maxHeartbeats 2000000 in
theorem kept_arg2 : after (ops (F := F)) V (Proc.devRef .tc main_arg2) = V (Proc.devRef .tc main_arg2) := by
  dsimp only [ops]; after_results_simp <;> rfl
set_option maxHeartbeats 2000000 in
theorem kept_arg3 : after (ops (F := F)) V (Proc.devRef .tc main_arg3) = V (Proc.devRef .tc main_arg3) := by
  dsimp only [ops]; after_results_simp <;> rfl
set_option maxHeartbeats 2000000 in
theorem kept_arg4 : after (ops (F := F)) V (Proc.devRef .tc main_arg4) = V (Proc.devRef .tc main_arg4) := by
  dsimp only [ops]; after_results_simp <;> rfl
set_option maxHeartbeats 2000000 in
theorem kept_arg5 : after (ops (F := F)) V (Proc.devRef .tc main_arg5) = V (Proc.devRef .tc main_arg5) := by
  dsimp only [ops]; after_results_simp <;> rfl
set_option maxHeartbeats 2000000 in
theorem kept_arg6 : after (ops (F := F)) V (Proc.devRef .tc main_arg6) = V (Proc.devRef .tc main_arg6) := by
  dsimp only [ops]; after_results_simp <;> rfl

end Cert.ReferenceIdeal.RefRun

end
-- ==== Proof.LibFoldAppend.lean ====
/-
  A fold of host operations over a concatenation of two lists is the fold over the first list followed by the fold
  over the second: the contents after a line are the contents after its stretches, composed.
-/
import Idealize.ShloMosaic.Lib.StableHlo.Run

namespace LibFoldAppend

open Idealize.ShloMosaic Idealize.ShloMosaic.StableHlo

variable {nD : Nat} {τ : Topo} {sig : RefSig} {Val : EltTy → Type}

/-- Folding over `l₁ ++ l₂` from `V` is folding over `l₂` from the fold over `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end LibFoldAppend
-- ==== Proof.RefSeg.lean ====
/-
  The reference's straight line cut into seven consecutive stretches, at the points where the kernel's program passes
  from host operations to a pipelined region or back: the buffer contents after the whole line are the stretches'
  folds composed in order.
-/
import proofs.«169478_j1786706395263_1_alg».proof.Proof.RefRun
import proofs.«169478_j1786706395263_1_alg».proof.Proof.LibFoldAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 1: the graph preparation: source and target indices with self loops, edge weights, degrees, and the symmetric normalization of every edge. -/
abbrev seg1 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x0DA24260#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v11 main_v14 main_v15 (maximumf : (⟨S100000, .f32⟩ : BufTy).Contents (Elt F) → (⟨S100000, .f32⟩ : BufTy).Contents (Elt F) → (⟨S100000, .f32⟩ : BufTy).Contents (Elt F)),
    StableHlo.unary main_v15 main_v16 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S100000 ![] bcast_S_S100000),
    StableHlo.TRef.ternary (.of main_v13) (.of main_v16) main_call0.v1 main_call0.v2 select,
    StableHlo.nullary main_c (constantI S_ 32 0#32),
    StableHlo.unary main_c main_v18 (broadcastInDim S1700000 ![] bcast_S_S1700000 : (⟨S_, .i32⟩ : BufTy).Contents (Elt F) → (⟨S1700000, .i32⟩ : BufTy).Contents (Elt F)),
    StableHlo.binary main_v3 main_v18 main_v19 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v20 (broadcastInDim S1700000 ![] bcast_S_S1700000 : (⟨S_, .i32⟩ : BufTy).Contents (Elt F) → (⟨S1700000, .i32⟩ : BufTy).Contents (Elt F)),
    StableHlo.binary main_v3 main_v20 main_v21 (addi : (⟨S1700000, .i32⟩ : BufTy).Contents (Elt F) → (⟨S1700000, .i32⟩ : BufTy).Contents (Elt F) → (⟨S1700000, .i32⟩ : BufTy).Contents (Elt F)),
    StableHlo.ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v22 main_v23 (broadcastInDim S1700000x1 ![0] bcast_S1700000_S1700000x1_0 : (⟨S1700000, .i32⟩ : BufTy).Contents (Elt F) → (⟨S1700000x1, .i32⟩ : BufTy).Contents (Elt F)),
    StableHlo.binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v8 main_v25 (mulf : (⟨S1700000, .f32⟩ : BufTy).Contents (Elt F) → (⟨S1700000, .f32⟩ : BufTy).Contents (Elt F) → (⟨S1700000, .f32⟩ : BufTy).Contents (Elt F)),
    StableHlo.nullary main_c_5 (constantI S_ 32 0#32),
    StableHlo.unary main_c_5 main_v26 (broadcastInDim S1700000 ![] bcast_S_S1700000 : (⟨S_, .i32⟩ : BufTy).Contents (Elt F) → (⟨S1700000, .i32⟩ : BufTy).Contents (Elt F)),
    StableHlo.binary main_v6 main_v26 main_v27 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v28 (broadcastInDim S1700000 ![] bcast_S_S1700000 : (⟨S_, .i32⟩ : BufTy).Contents (Elt F) → (⟨S1700000, .i32⟩ : BufTy).Contents (Elt F)),
    StableHlo.binary main_v6 main_v28 main_v29 (addi : (⟨S1700000, .i32⟩ : BufTy).Contents (Elt F) → (⟨S1700000, .i32⟩ : BufTy).Contents (Elt F) → (⟨S1700000, .i32⟩ : BufTy).Contents (Elt F)),
    StableHlo.ternary main_v27 main_v29 main_v6 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v30 main_v31 (broadcastInDim S1700000x1 ![0] bcast_S1700000_S1700000x1_0 : (⟨S1700000, .i32⟩ : BufTy).Contents (Elt F) → (⟨S1700000x1, .i32⟩ : BufTy).Contents (Elt F)),
    StableHlo.binary main_v17 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v32 main_v33 (mulf : (⟨S1700000, .f32⟩ : BufTy).Contents (Elt F) → (⟨S1700000, .f32⟩ : BufTy).Contents (Elt F) → (⟨S1700000, .f32⟩ : BufTy).Contents (Elt F)) ]

/-- Stretch 2: the first dense product. -/
abbrev seg2 : List (HloOp τ sig (Elt F)) :=
  [ StableHlo.binary main_arg0 main_arg3 main_v34 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Stretch 3: the first aggregation: each edge's normalized message from its source row, summed at its target. -/
abbrev seg3 : List (HloOp τ sig (Elt F)) :=
  [ StableHlo.unary main_v33 main_v35 (broadcastInDim S1700000x1 ![0] bcast_S1700000_S1700000x1_0 : (⟨S1700000, .f32⟩ : BufTy).Contents (Elt F) → (⟨S1700000x1, .f32⟩ : BufTy).Contents (Elt F)),
    StableHlo.nullary main_c_7 (constantI S_ 32 0#32),
    StableHlo.unary main_c_7 main_v36 (broadcastInDim S1700000 ![] bcast_S_S1700000 : (⟨S_, .i32⟩ : BufTy).Contents (Elt F) → (⟨S1700000, .i32⟩ : BufTy).Contents (Elt F)),
    StableHlo.binary main_v3 main_v36 main_v37 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v38 (broadcastInDim S1700000 ![] bcast_S_S1700000 : (⟨S_, .i32⟩ : BufTy).Contents (Elt F) → (⟨S1700000, .i32⟩ : BufTy).Contents (Elt F)),
    StableHlo.binary main_v3 main_v38 main_v39 (addi : (⟨S1700000, .i32⟩ : BufTy).Contents (Elt F) → (⟨S1700000, .i32⟩ : BufTy).Contents (Elt F) → (⟨S1700000, .i32⟩ : BufTy).Contents (Elt F)),
    StableHlo.ternary main_v37 main_v39 main_v3 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v40 main_v41 (broadcastInDim S1700000x1 ![0] bcast_S1700000_S1700000x1_0 : (⟨S1700000, .i32⟩ : BufTy).Contents (Elt F) → (⟨S1700000x1, .i32⟩ : BufTy).Contents (Elt F)),
    StableHlo.binary main_v34 main_v41 main_v42 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v35 main_v43 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v43 main_v42 main_v44 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v45 (broadcastInDim S100000x64 ![] bcast_S_S100000x64 : (⟨S_, .f32⟩ : BufTy).Contents (Elt F) → (⟨S100000x64, .f32⟩ : BufTy).Contents (Elt F)),
    StableHlo.unary main_v6 main_v46 (broadcastInDim S1700000x1 ![0] bcast_S1700000_S1700000x1_0 : (⟨S1700000, .i32⟩ : BufTy).Contents (Elt F) → (⟨S1700000x1, .i32⟩ : BufTy).Contents (Elt F)),
    StableHlo.ternary main_v45 main_v46 main_v44 main_v47 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Stretch 4: the first bias and the exponential linear unit (its two selects inline). -/
abbrev seg4 : List (HloOp τ sig (Elt F)) :=
  [ StableHlo.unary main_arg4 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v50) main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary (.of main_v50) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 (.of main_v50) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 (.of main_v50) main_call1.v7 main_call1.call1.v0 select ]

/-- Stretch 5: the second dense product. -/
abbrev seg5 : List (HloOp τ sig (Elt F)) :=
  [ StableHlo.binary main_v51 main_arg5 main_v52 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)) ]

/-- Stretch 6: the second aggregation. -/
abbrev seg6 : List (HloOp τ sig (Elt F)) :=
  [ StableHlo.unary main_v33 main_v53 (broadcastInDim S1700000x1 ![0] bcast_S1700000_S1700000x1_0 : (⟨S1700000, .f32⟩ : BufTy).Contents (Elt F) → (⟨S1700000x1, .f32⟩ : BufTy).Contents (Elt F)),
    StableHlo.nullary main_c_10 (constantI S_ 32 0#32),
    StableHlo.unary main_c_10 main_v54 (broadcastInDim S1700000 ![] bcast_S_S1700000 : (⟨S_, .i32⟩ : BufTy).Contents (Elt F) → (⟨S1700000, .i32⟩ : BufTy).Contents (Elt F)),
    StableHlo.binary main_v3 main_v54 main_v55 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v56 (broadcastInDim S1700000 ![] bcast_S_S1700000 : (⟨S_, .i32⟩ : BufTy).Contents (Elt F) → (⟨S1700000, .i32⟩ : BufTy).Contents (Elt F)),
    StableHlo.binary main_v3 main_v56 main_v57 (addi : (⟨S1700000, .i32⟩ : BufTy).Contents (Elt F) → (⟨S1700000, .i32⟩ : BufTy).Contents (Elt F) → (⟨S1700000, .i32⟩ : BufTy).Contents (Elt F)),
    StableHlo.ternary main_v55 main_v57 main_v3 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v58 main_v59 (broadcastInDim S1700000x1 ![0] bcast_S1700000_S1700000x1_0 : (⟨S1700000, .i32⟩ : BufTy).Contents (Elt F) → (⟨S1700000x1, .i32⟩ : BufTy).Contents (Elt F)),
    StableHlo.binary main_v52 main_v59 main_v60 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    StableHlo.binary main_v53 main_v60 main_v61 (mulf : (⟨S1700000x1, .f32⟩ : BufTy).Contents (Elt F) → (⟨S1700000x1, .f32⟩ : BufTy).Contents (Elt F) → (⟨S1700000x1, .f32⟩ : BufTy).Contents (Elt F)),
    StableHlo.nullary main_cst_12 (constant S_ .f32 0x00000000#32),
    StableHlo.unary main_cst_12 main_v62 (broadcastInDim S100000x1 ![] bcast_S_S100000x1 : (⟨S_, .f32⟩ : BufTy).Contents (Elt F) → (⟨S100000x1, .f32⟩ : BufTy).Contents (Elt F)),
    StableHlo.unary main_v6 main_v63 (broadcastInDim S1700000x1 ![0] bcast_S1700000_S1700000x1_0 : (⟨S1700000, .i32⟩ : BufTy).Contents (Elt F) → (⟨S1700000x1, .i32⟩ : BufTy).Contents (Elt F)),
    StableHlo.ternary main_v62 main_v63 main_v61 main_v64 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)) ]

/-- Stretch 7: the second bias and the logistic function. -/
abbrev seg7 : List (HloOp τ sig (Elt F)) :=
  [ StableHlo.unary main_arg6 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S100000x1 ![0, 1] bcast_S1x1_S100000x1_0_1 : (⟨S1x1, .f32⟩ : BufTy).Contents (Elt F) → (⟨S100000x1, .f32⟩ : BufTy).Contents (Elt F)),
    StableHlo.binary main_v64 main_v66 main_v67 (addf : (⟨S100000x1, .f32⟩ : BufTy).Contents (Elt F) → (⟨S100000x1, .f32⟩ : BufTy).Contents (Elt F) → (⟨S100000x1, .f32⟩ : BufTy).Contents (Elt F)),
    StableHlo.unary main_v67 main_v68 (Host.negf : (⟨S100000x1, .f32⟩ : BufTy).Contents (Elt F) → (⟨S100000x1, .f32⟩ : BufTy).Contents (Elt F)),
    StableHlo.unary main_v68 main_v69 (Host.exp : (⟨S100000x1, .f32⟩ : BufTy).Contents (Elt F) → (⟨S100000x1, .f32⟩ : BufTy).Contents (Elt F)),
    StableHlo.nullary main_cst_13 (constant S_ .f32 0x3F800000#32),
    StableHlo.unary main_cst_13 main_v70 (broadcastInDim S100000x1 ![] bcast_S_S100000x1 : (⟨S_, .f32⟩ : BufTy).Contents (Elt F) → (⟨S100000x1, .f32⟩ : BufTy).Contents (Elt F)),
    StableHlo.binary main_v70 main_v69 main_v71 (addf : (⟨S100000x1, .f32⟩ : BufTy).Contents (Elt F) → (⟨S100000x1, .f32⟩ : BufTy).Contents (Elt F) → (⟨S100000x1, .f32⟩ : BufTy).Contents (Elt F)),
    StableHlo.nullary main_cst_14 (constant S_ .f32 0x3F800000#32),
    StableHlo.unary main_cst_14 main_v72 (broadcastInDim S100000x1 ![] bcast_S_S100000x1 : (⟨S_, .f32⟩ : BufTy).Contents (Elt F) → (⟨S100000x1, .f32⟩ : BufTy).Contents (Elt F)),
    StableHlo.binary main_v72 main_v71 main_v73 (Host.divf : (⟨S100000x1, .f32⟩ : BufTy).Contents (Elt F) → (⟨S100000x1, .f32⟩ : BufTy).Contents (Elt F) → (⟨S100000x1, .f32⟩ : BufTy).Contents (Elt F)) ]

/-- The line is the seven stretches in order. -/
theorem ops_eq : (ops : List (HloOp τ sig (Elt F))) = seg1 ++ (seg2 ++ (seg3 ++ (seg4 ++ (seg5 ++ (seg6 ++ seg7))))) := rfl

/-- The contents after the whole line: the stretches' folds, composed. -/
theorem after_ops (V : Valuation τ sig (Elt F)) :
    after ops V = after seg7 (after seg6 (after seg5 (after seg4 (after seg3 (after seg2 (after seg1 V)))))) := by
  rw [ops_eq, LibFoldAppend.after_append, LibFoldAppend.after_append, LibFoldAppend.after_append, LibFoldAppend.after_append,
    LibFoldAppend.after_append, LibFoldAppend.after_append]

end Cert.ReferenceIdeal.RefRun

end
-- ==== Proof.Prep.lean ====
/-
  The graph preparation, on both programs: the source and target index vectors with the self loops appended, the edge
  weights with ones appended, the degree of every node (the weights summed at their targets), its guarded inverse square
  root, and the symmetric normalization of every edge. Both programs spell it with the same operations in the same
  order, so from entry contents that agree on the edge index and edge weight arrays the two folds agree at the three
  buffers the later stages read: source indices, target indices, normalized weights. The comparison is cut in two: the
  nine operations that build the index vectors (where the concatenations sit), then the rest.
-/
import proofs.«169478_j1786706395263_1_alg».proof.Proof.Gen.KernelIdeal.Frame
import proofs.«169478_j1786706395263_1_alg».proof.Proof.RefSeg
import proofs.«169478_j1786706395263_1_alg».proof.Proof.LibFoldAppend
import Idealize.ShloMosaic.Lib.StableHlo.Run
import Idealize.ShloMosaic.PureOps.Ideal

set_option maxRecDepth 16384

noncomputable section

namespace Cert.KernelIdeal.Prep
open Cert.KernelIdeal Cert.KernelIdeal.Gen Idealize.ShloMosaic Idealize.ShloMosaic.TcCoe Idealize.SL.Sem Idealize.ShloMosaic.StableHlo
variable {F : FTy → Type} [FloatOps F]
/-- The kernel program's first nine host operations: the index vectors and the ones. -/
abbrev idxOps : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)) ]
/-- The rest of its first stretch: weights, degrees, the guarded inverse square root's operands. -/
abbrev degOps : List (HloOp τ sig (Elt F)) :=
  [ StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x0DA24260#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v11 main_v14 main_v15 (maximumf : (⟨S100000, .f32⟩ : BufTy).Contents (Elt F) → (⟨S100000, .f32⟩ : BufTy).Contents (Elt F) → (⟨S100000, .f32⟩ : BufTy).Contents (Elt F)),
    StableHlo.unary main_v15 main_v16 (Host.rsqrt : (⟨S100000, .f32⟩ : BufTy).Contents (Elt F) → (⟨S100000, .f32⟩ : BufTy).Contents (Elt F)),
    StableHlo.nullary main_cst_3 (constant S_ .f32 0x00000000#32) ]
theorem hostOps0_split : (Cert.KernelIdeal.Gen.hostOps0 : List (HloOp τ sig (Elt F))) = idxOps ++ degOps := rfl
end Cert.KernelIdeal.Prep

namespace Cert.ReferenceIdeal.Prep
open Cert.ReferenceIdeal Cert.ReferenceIdeal.Gen Idealize.ShloMosaic Idealize.ShloMosaic.TcCoe Idealize.SL.Sem Idealize.ShloMosaic.StableHlo
variable {F : FTy → Type} [FloatOps F]
/-- The reference program's first nine host operations. -/
abbrev idxOps : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)) ]
/-- The rest of its preparation. -/
abbrev normOps : List (HloOp τ sig (Elt F)) :=
  [ StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x0DA24260#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v11 main_v14 main_v15 (maximumf : (⟨S100000, .f32⟩ : BufTy).Contents (Elt F) → (⟨S100000, .f32⟩ : BufTy).Contents (Elt F) → (⟨S100000, .f32⟩ : BufTy).Contents (Elt F)),
    StableHlo.unary main_v15 main_v16 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S100000 ![] bcast_S_S100000),
    StableHlo.TRef.ternary (.of main_v13) (.of main_v16) main_call0.v1 main_call0.v2 select,
    StableHlo.nullary main_c (constantI S_ 32 0#32),
    StableHlo.unary main_c main_v18 (broadcastInDim S1700000 ![] bcast_S_S1700000 : (⟨S_, .i32⟩ : BufTy).Contents (Elt F) → (⟨S1700000, .i32⟩ : BufTy).Contents (Elt F)),
    StableHlo.binary main_v3 main_v18 main_v19 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v20 (broadcastInDim S1700000 ![] bcast_S_S1700000 : (⟨S_, .i32⟩ : BufTy).Contents (Elt F) → (⟨S1700000, .i32⟩ : BufTy).Contents (Elt F)),
    StableHlo.binary main_v3 main_v20 main_v21 (addi : (⟨S1700000, .i32⟩ : BufTy).Contents (Elt F) → (⟨S1700000, .i32⟩ : BufTy).Contents (Elt F) → (⟨S1700000, .i32⟩ : BufTy).Contents (Elt F)),
    StableHlo.ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v22 main_v23 (broadcastInDim S1700000x1 ![0] bcast_S1700000_S1700000x1_0 : (⟨S1700000, .i32⟩ : BufTy).Contents (Elt F) → (⟨S1700000x1, .i32⟩ : BufTy).Contents (Elt F)),
    StableHlo.binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v8 main_v25 (mulf : (⟨S1700000, .f32⟩ : BufTy).Contents (Elt F) → (⟨S1700000, .f32⟩ : BufTy).Contents (Elt F) → (⟨S1700000, .f32⟩ : BufTy).Contents (Elt F)),
    StableHlo.nullary main_c_5 (constantI S_ 32 0#32),
    StableHlo.unary main_c_5 main_v26 (broadcastInDim S1700000 ![] bcast_S_S1700000 : (⟨S_, .i32⟩ : BufTy).Contents (Elt F) → (⟨S1700000, .i32⟩ : BufTy).Contents (Elt F)),
    StableHlo.binary main_v6 main_v26 main_v27 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v28 (broadcastInDim S1700000 ![] bcast_S_S1700000 : (⟨S_, .i32⟩ : BufTy).Contents (Elt F) → (⟨S1700000, .i32⟩ : BufTy).Contents (Elt F)),
    StableHlo.binary main_v6 main_v28 main_v29 (addi : (⟨S1700000, .i32⟩ : BufTy).Contents (Elt F) → (⟨S1700000, .i32⟩ : BufTy).Contents (Elt F) → (⟨S1700000, .i32⟩ : BufTy).Contents (Elt F)),
    StableHlo.ternary main_v27 main_v29 main_v6 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v30 main_v31 (broadcastInDim S1700000x1 ![0] bcast_S1700000_S1700000x1_0 : (⟨S1700000, .i32⟩ : BufTy).Contents (Elt F) → (⟨S1700000x1, .i32⟩ : BufTy).Contents (Elt F)),
    StableHlo.binary main_v17 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v32 main_v33 (mulf : (⟨S1700000, .f32⟩ : BufTy).Contents (Elt F) → (⟨S1700000, .f32⟩ : BufTy).Contents (Elt F) → (⟨S1700000, .f32⟩ : BufTy).Contents (Elt F)) ]
theorem seg1_split : (Cert.ReferenceIdeal.RefRun.seg1 : List (HloOp τ sig (Elt F))) = idxOps ++ normOps := rfl
end Cert.ReferenceIdeal.Prep

namespace Cert.Sim

open Cert.KernelIdeal.Gen Idealize.ShloMosaic Idealize.ShloMosaic.TcCoe Idealize.SL.Sem Idealize.ShloMosaic.StableHlo

variable (Uk : Valuation Cert.KernelIdeal.τ Cert.KernelIdeal.sig (Elt Ideal)) (Ur : Valuation Cert.ReferenceIdeal.τ Cert.ReferenceIdeal.sig (Elt Ideal))

/-! ## The index vectors -/

theorem idx_v3 (h1 : Uk (Proc.devRef .tc Cert.KernelIdeal.main_arg1) = Ur (Proc.devRef .tc Cert.ReferenceIdeal.main_arg1)) :
    after (Cert.KernelIdeal.Prep.idxOps (F := Ideal)) Uk (Proc.devRef .tc Cert.KernelIdeal.main_v3) = after (Cert.ReferenceIdeal.Prep.idxOps (F := Ideal)) Ur (Proc.devRef .tc Cert.ReferenceIdeal.main_v3) := by
  dsimp only [Cert.KernelIdeal.Prep.idxOps, Cert.ReferenceIdeal.Prep.idxOps]
  after_results
  rw [h1]
  rfl

theorem idx_v6 (h1 : Uk (Proc.devRef .tc Cert.KernelIdeal.main_arg1) = Ur (Proc.devRef .tc Cert.ReferenceIdeal.main_arg1)) :
    after (Cert.KernelIdeal.Prep.idxOps (F := Ideal)) Uk (Proc.devRef .tc Cert.KernelIdeal.main_v6) = after (Cert.ReferenceIdeal.Prep.idxOps (F := Ideal)) Ur (Proc.devRef .tc Cert.ReferenceIdeal.main_v6) := by
  dsimp only [Cert.KernelIdeal.Prep.idxOps, Cert.ReferenceIdeal.Prep.idxOps]
  after_results
  rw [h1]
  rfl

theorem idx_v7 :
    after (Cert.KernelIdeal.Prep.idxOps (F := Ideal)) Uk (Proc.devRef .tc Cert.KernelIdeal.main_v7) = after (Cert.ReferenceIdeal.Prep.idxOps (F := Ideal)) Ur (Proc.devRef .tc Cert.ReferenceIdeal.main_v7) := by
  dsimp only [Cert.KernelIdeal.Prep.idxOps, Cert.ReferenceIdeal.Prep.idxOps]
  after_results

theorem idx_arg2 (h2 : Uk (Proc.devRef .tc Cert.KernelIdeal.main_arg2) = Ur (Proc.devRef .tc Cert.ReferenceIdeal.main_arg2)) :
    after (Cert.KernelIdeal.Prep.idxOps (F := Ideal)) Uk (Proc.devRef .tc Cert.KernelIdeal.main_arg2) = after (Cert.ReferenceIdeal.Prep.idxOps (F := Ideal)) Ur (Proc.devRef .tc Cert.ReferenceIdeal.main_arg2) := by
  dsimp only [Cert.KernelIdeal.Prep.idxOps, Cert.ReferenceIdeal.Prep.idxOps]
  after_results_simp
  exact h2

/-! ## Degrees and normalization, from index vectors that agree -/

attribute [local irreducible] Host.scatterAdd Host.gather in
set_option maxHeartbeats 4000000 in
theorem norm_v33 (h2 : Uk (Proc.devRef .tc Cert.KernelIdeal.main_arg2) = Ur (Proc.devRef .tc Cert.ReferenceIdeal.main_arg2)) (h_v3 : Uk (Proc.devRef .tc Cert.KernelIdeal.main_v3) = Ur (Proc.devRef .tc Cert.ReferenceIdeal.main_v3)) (h_v6 : Uk (Proc.devRef .tc Cert.KernelIdeal.main_v6) = Ur (Proc.devRef .tc Cert.ReferenceIdeal.main_v6)) (h_v7 : Uk (Proc.devRef .tc Cert.KernelIdeal.main_v7) = Ur (Proc.devRef .tc Cert.ReferenceIdeal.main_v7)) :
    after (hostOps0_2 (F := Ideal)) (after (hostOps0_1 (F := Ideal)) (after (Cert.KernelIdeal.Prep.degOps (F := Ideal)) Uk)) (Proc.devRef .tc Cert.KernelIdeal.main_v33)
      = after (Cert.ReferenceIdeal.Prep.normOps (F := Ideal)) Ur (Proc.devRef .tc Cert.ReferenceIdeal.main_v33) := by
  dsimp only [hostOps0_2, hostOps0_1, Cert.KernelIdeal.Prep.degOps, Cert.ReferenceIdeal.Prep.normOps]
  after_results_simp
  rw [h2, h_v3, h_v6, h_v7]
  rfl

theorem norm_v3 (h_v3 : Uk (Proc.devRef .tc Cert.KernelIdeal.main_v3) = Ur (Proc.devRef .tc Cert.ReferenceIdeal.main_v3)) :
    after (hostOps0_2 (F := Ideal)) (after (hostOps0_1 (F := Ideal)) (after (Cert.KernelIdeal.Prep.degOps (F := Ideal)) Uk)) (Proc.devRef .tc Cert.KernelIdeal.main_v3)
      = after (Cert.ReferenceIdeal.Prep.normOps (F := Ideal)) Ur (Proc.devRef .tc Cert.ReferenceIdeal.main_v3) := by
  dsimp only [hostOps0_2, hostOps0_1, Cert.KernelIdeal.Prep.degOps, Cert.ReferenceIdeal.Prep.normOps]
  after_results_simp
  exact h_v3

theorem norm_v6 (h_v6 : Uk (Proc.devRef .tc Cert.KernelIdeal.main_v6) = Ur (Proc.devRef .tc Cert.ReferenceIdeal.main_v6)) :
    after (hostOps0_2 (F := Ideal)) (after (hostOps0_1 (F := Ideal)) (after (Cert.KernelIdeal.Prep.degOps (F := Ideal)) Uk)) (Proc.devRef .tc Cert.KernelIdeal.main_v6)
      = after (Cert.ReferenceIdeal.Prep.normOps (F := Ideal)) Ur (Proc.devRef .tc Cert.ReferenceIdeal.main_v6) := by
  dsimp only [hostOps0_2, hostOps0_1, Cert.KernelIdeal.Prep.degOps, Cert.ReferenceIdeal.Prep.normOps]
  after_results_simp
  exact h_v6

end Cert.Sim

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«169478_j1786706395263_1_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.LibExactProduct.lean ====
/-
  The exact matrix product as one function of its two operands, entry by entry:
  (x · w)(r, c) = Σ_k x(r, k) · w(k, c) on the extended reals, for an M × K and a K × N matrix.
  The host's contraction of axis 1 against axis 0 (no batch axis) is this function, and so is a product computed row
  block by row block, whatever the tiling of the rows. Also the product plus a bias row added to every row, and the
  host's spelling of that sum: a bias vector laid out as one row, copied into every row, and added.
-/
import proofs.«169478_j1786706395263_1_alg».proof.Proof.LibPlainDot
import Idealize.ShloMosaic.Lib.ValueLayout
import Idealize.ShloMosaic.Lib.Pipeline.Value

noncomputable section

namespace ExactProduct

open Idealize.ShloMosaic Idealize.ShloMosaic.ValueIdx

/-- The exact product of an M × K matrix and a K × N matrix. -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem mm_apply {M K N : ℕ} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- The host's contraction of axis 1 against axis 0, no batch axis, is the exact product. -/
theorem hostDot_eq_mm {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral (F := Ideal) d prec x w = mm x w := by
  subst hd
  funext i
  obtain ⟨r, c, rfl⟩ : ∃ (r : Fin M) (c : Fin N), i = ix2 r c := ⟨i 0, i 1, eq_ix2 i⟩
  exact PlainDot.apply prec x w r c

/-- The exact product plus a bias row added to every row. -/
def proj {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => mm x w i + b (ix2 (0 : Fin 1) (i 1))

/-- A bias vector laid out as one row and copied into every row reads, at (r, c), the vector at c. -/
theorem rowOfVector_apply {M N : ℕ} (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 bp) (ix2 r c) = bp (ix1 c) := by
  have hc : c.val < N := c.isLt
  refine (broadcastInDim_apply ![0, 1] h2 _ (ix2 r c) (ix2 (0 : Fin 1) c) (fun a => ?_)).trans
    (broadcastInDim_apply ![1] h1 bp (ix2 (0 : Fin 1) c) (ix1 c) (fun a => ?_))
  · match a with
    | ⟨0, _⟩ => rfl
    | ⟨1, _⟩ =>
      show c.val = if N = 1 then 0 else c.val
      split
      · omega
      · rfl
  · match a with
    | ⟨0, _⟩ =>
      show c.val = if N = 1 then 0 else c.val
      split
      · omega
      · rfl

/-- The host's product plus the bias vector copied into every row is the projection with the vector cast to a row. -/
theorem addRow_eq_proj {M K N : ℕ} (x : (⟨2, ![M, K]⟩ : Shape).Idx → EReal) (w : (⟨2, ![K, N]⟩ : Shape).Idx → EReal)
    (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) (mm x w) (broadcastInDim ⟨2, ![M, N]⟩ ![0, 1] h2 (broadcastInDim ⟨2, ![1, N]⟩ ![1] h1 bp))
      = proj x w (shapeCast ⟨2, ![1, N]⟩ bp hc) := by
  funext i
  obtain ⟨r, c, rfl⟩ : ∃ (r : Fin M) (c : Fin N), i = ix2 r c := ⟨i 0, i 1, eq_ix2 i⟩
  show mm x w (ix2 r c) + _ = mm x w (ix2 r c) + shapeCast ⟨2, ![1, N]⟩ bp hc (ix2 (0 : Fin 1) c)
  exact congrArg (mm x w (ix2 r c) + ·) ((rowOfVector_apply bp h1 h2 r c).trans (shapeCast_a_1a_apply bp hc (0 : Fin 1) c).symm)

end ExactProduct

end
-- ==== Proof.Region0.lean ====
/-
  Region 0: a row-tiled matrix product. Each grid point t loads rows 10000·t … 10000·t + 9999 of the left matrix and the whole
  right matrix, and stores their product into the same rows of the output. Read at an entry (r, c) the product into the
  zero accumulator is Σ_k left(r, k) · right(k, c) — a change of float format is the identity on the extended reals —,
  the ten row blocks tile the output, so the output array ends holding the exact product of the two arrays as the region
  found them, whatever those contents are.
-/
import proofs.«169478_j1786706395263_1_alg».proof.Proof.Gen.KernelIdeal.Frame
import proofs.«169478_j1786706395263_1_alg».proof.Proof.LibPlainMatmul
import proofs.«169478_j1786706395263_1_alg».proof.Proof.LibExactProduct
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the left and output windows move down the rows together, the right window stays. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 9 :=
  (by decide +kernel : ∀ t : Fin grid0.N, _)

/-- Every row block is some point's. -/
theorem idx_onto : ∀ q : Fin 10, ∃ t : Fin cfg0.N, win0_2.index t (0 : Fin 2) = q.val :=
  (by decide +kernel : ∀ q : Fin 10, ∃ t : Fin grid0.N, _)

/-- The stored block at (p, q): the row of the left block against the column of the right matrix. -/
theorem pay_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact PlainMatmul.apply_zero (M := 10000) (K := 128) (N := 64) (truncf .bf16 x0 bitsLt_bf16_f32) (truncf .bf16 x1 bitsLt_bf16_f32) p q

/-- The stored block at (p, q) is the whole product at the array index i, once the blocks are known to be the arrays' rows. -/
theorem block (X : S100000x128.Idx → EReal) (W : S128x64.Idx → EReal) (x0 : Vec Ideal S10000x128 .f32) (x1 : Vec Ideal S128x64 .f32)
    (i : S100000x64.Idx) (p : Fin 10000) (q : Fin 64)
    (h0 : ∀ k : Fin 128, x0 (ix2 p k) = X (ix2 (i 0) k)) (h1 : ∀ k : Fin 128, x1 (ix2 k q) = W (ix2 k (i 1))) :
    k0_pay1 (F := Ideal) x0 x1 (ix2 p q) = ExactProduct.mm X W i := by
  rw [pay_apply]
  exact Finset.sum_congr rfl fun k _ => by rw [h0 k, h1 k]

/-- What point t writes back is block t of the exact product of the arrays as the region found them. -/
theorem flushed_eq (c : Dev nD) (t : Fin cfg0.N) :
    (dat0 V c).flushed 2 t = ((cfg0.win 2).blk t).view.read (Elt Ideal)
      (ExactProduct.mm (M := 100000) (K := 128) (N := 64) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine block (V c main_arg0) (V c main_arg3) (iblk0 V c 0 t) (iblk0 V c 1 t) (((cfg0.win 2).blk t).view.emb (ix2 p q)) p q (fun k => ?_) (fun k => ?_)
  · show V c main_arg0 (((cfg0.win 0).blk t).view.emb (ix2 p k)) = V c main_arg0 (ix2 ((((cfg0.win 2).blk t).view.emb (ix2 p q)) 0) k)
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · show V c main_arg3 (((cfg0.win 1).blk t).view.emb (ix2 k q)) = V c main_arg3 (ix2 k ((((cfg0.win 2).blk t).view.emb (ix2 p q)) 1))
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- An index of the output array is in point t's block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- The ten row blocks cover the output: row r is in block r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  obtain ⟨e0, e1, e2, e3, e4, e5⟩ := idx_facts t
  have ht' : win0_2.index t (0 : Fin 2) = (i 0).val / 10000 := ht
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the exact product of the two arrays as the region found them. -/
theorem final (c : Dev nD) :
    (dat0 V c).arrAt 2 cfg0.N = ExactProduct.mm (M := 100000) (K := 128) (N := 64) (V c main_arg0) (V c main_arg3) :=
  (dat0 V c).arrAt_eq_of_cover 2 _ (fun t _ => flushed_eq V c t) (cover)

end Cert.KernelIdeal.Region0

end
-- ==== Proof.Region1.lean ====
/-
  Region 1: bias and exponential linear unit, row-tiled. Each grid point t loads rows 10000·t … 10000·t + 9999 of the aggregated
  messages and the one bias row, adds the bias row to every row and applies v ↦ (v if v > 0 else e^v − 1) entry by entry.
  The ten row blocks tile the output, so the output array ends holding that function of the two arrays as the region found them.
-/
import proofs.«169478_j1786706395263_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The exponential linear unit as the kernel spells it: v where v > 0, else e^v − 1.0. -/
def eluCell (v : EReal) : EReal :=
  Scalar.select (FloatOps.cmpf (F := Ideal) .ogt v (Scalar.ofBits (F := Ideal) .f32 0x00000000#32)) v
    (FloatOps.subf (F := Ideal) (FloatOps.exp (F := Ideal) v) (Scalar.ofBits (F := Ideal) .f32 0x3F800000#32))

/-- The whole output: the cell function of (entry + the bias row's entry in the same column), at every index. -/
def whole (A : S100000x64.Idx → EReal) (B : S1x64.Idx → EReal) : S100000x64.Idx → EReal :=
  fun i => eluCell (A i + B (ix2 (0 : Fin 1) (i 1)))

/-- The index maps over the ten grid points: the input and output windows move down the rows together, the bias row stays. -/
theorem idx_facts : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0 ∧ win1_2.index t (1 : Fin 2) = 0 ∧ win1_2.index t (0 : Fin 2) ≤ 9 :=
  (by decide +kernel : ∀ t : Fin grid1.N, _)

/-- Every row block is some point's. -/
theorem idx_onto : ∀ q : Fin 10, ∃ t : Fin cfg1.N, win1_2.index t (0 : Fin 2) = q.val :=
  (by decide +kernel : ∀ q : Fin 10, ∃ t : Fin grid1.N, _)

/-- The stored block at (p, q): the cell function of the block's entry plus the bias row's entry in column q. -/
theorem pay_apply (x0 : Vec Ideal S10000x64 .f32) (x1 : Vec Ideal S1x64 .f32) (p : Fin 10000) (q : Fin 64) :
    k1_pay1 (F := Ideal) x0 x1 (ix2 p q) = eluCell (x0 (ix2 p q) + x1 (ix2 (0 : Fin 1) q)) := by
  have hb : broadcastTo S10000x64 x1 broadcasts_S1x64_S10000x64 (ix2 p q) = x1 (ix2 (0 : Fin 1) q) :=
    broadcastTo_1b_ab_apply (a := 10000) (b := 64) x1 broadcasts_S1x64_S10000x64 p q
  unfold k1_pay1 eluCell
  simp only [shapeCast_self]
  rw [← hb]
  rfl

/-- The stored block at (p, q) is the whole output at the array index i, once the blocks are known to be the arrays' rows. -/
theorem block (A : S100000x64.Idx → EReal) (B : S1x64.Idx → EReal) (x0 : Vec Ideal S10000x64 .f32) (x1 : Vec Ideal S1x64 .f32)
    (i : S100000x64.Idx) (p : Fin 10000) (q : Fin 64)
    (h0 : x0 (ix2 p q) = A i) (h1 : x1 (ix2 (0 : Fin 1) q) = B (ix2 (0 : Fin 1) (i 1))) :
    k1_pay1 (F := Ideal) x0 x1 (ix2 p q) = whole A B i := by
  rw [pay_apply, h0, h1]
  rfl

/-- What point t writes back is block t of the whole output over the arrays as the region found them. -/
theorem flushed_eq (c : Dev nD) (t : Fin cfg1.N) :
    (dat1 V c).flushed 2 t = ((cfg1.win 2).blk t).view.read (Elt Ideal) (whole (V c main_v47) (V c main_v48)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine block (V c main_v47) (V c main_v48) (iblk1 V c 0 t) (iblk1 V c 1 t) (((cfg1.win 2).blk t).view.emb (ix2 p q)) p q ?_ ?_
  · show V c main_v47 (((cfg1.win 0).blk t).view.emb (ix2 p q)) = V c main_v47 (((cfg1.win 2).blk t).view.emb (ix2 p q))
    refine congrArg _ (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  · show V c main_v48 (((cfg1.win 1).blk t).view.emb (ix2 (0 : Fin 1) q)) = V c main_v48 (ix2 (0 : Fin 1) ((((cfg1.win 2).blk t).view.emb (ix2 p q)) 1))
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega

/-- An index of the output array is in point t's block iff each coordinate is in the block's range. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- The ten row blocks cover the output: row r is in block r / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  obtain ⟨e0, e1, e2, e3, e4, e5⟩ := idx_facts t
  have ht' : win1_2.index t (0 : Fin 2) = (i 0).val / 10000 := ht
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region: the whole output over the two arrays as the region found them. -/
theorem final (c : Dev nD) : (dat1 V c).arrAt 2 cfg1.N = whole (V c main_v47) (V c main_v48) :=
  (dat1 V c).arrAt_eq_of_cover 2 _ (fun t _ => flushed_eq V c t) (cover)

end Cert.KernelIdeal.Region1

end
-- ==== Proof.Region2.lean ====
/-
  Region 2: a row-tiled matrix product. Each grid point t loads rows 10000·t … 10000·t + 9999 of the left matrix and the whole
  right matrix, and stores their product into the same rows of the output. Read at an entry (r, c) the product into the
  zero accumulator is Σ_k left(r, k) · right(k, c) — a change of float format is the identity on the extended reals —,
  the ten row blocks tile the output, so the output array ends holding the exact product of the two arrays as the region
  found them, whatever those contents are.
-/
import proofs.«169478_j1786706395263_1_alg».proof.Proof.Gen.KernelIdeal.Frame
import proofs.«169478_j1786706395263_1_alg».proof.Proof.LibPlainMatmul
import proofs.«169478_j1786706395263_1_alg».proof.Proof.LibExactProduct
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the left and output windows move down the rows together, the right window stays. -/
theorem idx_facts : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 ∧ win2_2.index t (0 : Fin 2) ≤ 9 :=
  (by decide +kernel : ∀ t : Fin grid2.N, _)

/-- Every row block is some point's. -/
theorem idx_onto : ∀ q : Fin 10, ∃ t : Fin cfg2.N, win2_2.index t (0 : Fin 2) = q.val :=
  (by decide +kernel : ∀ q : Fin 10, ∃ t : Fin grid2.N, _)

/-- The stored block at (p, q): the row of the left block against the column of the right matrix. -/
theorem pay_apply (x0 : Vec Ideal S10000x64 .f32) (x1 : Vec Ideal S64x1 .f32) (p : Fin 10000) (q : Fin 1) :
    k2_pay1 (F := Ideal) x0 x1 (ix2 p q) = ∑ k : Fin 64, x0 (ix2 p k) * x1 (ix2 k q) := by
  unfold k2_pay1
  simp only [shapeCast_self]
  exact PlainMatmul.apply_zero (M := 10000) (K := 64) (N := 1) (truncf .bf16 x0 bitsLt_bf16_f32) (truncf .bf16 x1 bitsLt_bf16_f32) p q

/-- The stored block at (p, q) is the whole product at the array index i, once the blocks are known to be the arrays' rows. -/
theorem block (X : S100000x64.Idx → EReal) (W : S64x1.Idx → EReal) (x0 : Vec Ideal S10000x64 .f32) (x1 : Vec Ideal S64x1 .f32)
    (i : S100000x1.Idx) (p : Fin 10000) (q : Fin 1)
    (h0 : ∀ k : Fin 64, x0 (ix2 p k) = X (ix2 (i 0) k)) (h1 : ∀ k : Fin 64, x1 (ix2 k q) = W (ix2 k (i 1))) :
    k2_pay1 (F := Ideal) x0 x1 (ix2 p q) = ExactProduct.mm X W i := by
  rw [pay_apply]
  exact Finset.sum_congr rfl fun k _ => by rw [h0 k, h1 k]

/-- What point t writes back is block t of the exact product of the arrays as the region found them. -/
theorem flushed_eq (c : Dev nD) (t : Fin cfg2.N) :
    (dat2 V c).flushed 2 t = ((cfg2.win 2).blk t).view.read (Elt Ideal)
      (ExactProduct.mm (M := 100000) (K := 64) (N := 1) (V c main_v49) (V c main_arg5)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x1) hz]
  obtain ⟨e0, e1, e2, e3, e4, e5⟩ := idx_facts t
  funext j
  obtain ⟨p, q, rfl⟩ : ∃ (p : Fin 10000) (q : Fin 1), j = ix2 p q := ⟨j 0, j 1, eq_ix2 j⟩
  refine block (V c main_v49) (V c main_arg5) (iblk2 V c 0 t) (iblk2 V c 1 t) (((cfg2.win 2).blk t).view.emb (ix2 p q)) p q (fun k => ?_) (fun k => ?_)
  · show V c main_v49 (((cfg2.win 0).blk t).view.emb (ix2 p k)) = V c main_v49 (ix2 ((((cfg2.win 2).blk t).view.emb (ix2 p q)) 0) k)
    refine congrArg _ (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  · show V c main_arg5 (((cfg2.win 1).blk t).view.emb (ix2 k q)) = V c main_arg5 (ix2 k ((((cfg2.win 2).blk t).view.emb (ix2 p q)) 1))
    refine congrArg _ (funext fun a => Fin.ext ?_)
    match a with
    | ⟨0, _⟩ => show win2_1.index t (0 : Fin 2) * 64 + 1 * k.val = k.val; omega
    | ⟨1, _⟩ => show win2_1.index t (1 : Fin 2) * 1 + 1 * q.val = win2_2.index t (1 : Fin 2) * 1 + 1 * q.val; omega

/-- An index of the output array is in point t's block iff each coordinate is in the block's range. -/
theorem mem_blk (t : Fin cfg2.N) (i : S100000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v50).slice (win2_2.rect t)).set ↔ _
  rw [View.set_slice_whole, Rect.mem_set_unit]
  exact Iff.rfl

/-- The ten row blocks cover the output: row r is in block r / 10000. -/
theorem cover (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  obtain ⟨t, ht⟩ := idx_onto ⟨(i 0).val / 10000, by omega⟩
  obtain ⟨e0, e1, e2, e3, e4, e5⟩ := idx_facts t
  have ht' : win2_2.index t (0 : Fin 2) = (i 0).val / 10000 := ht
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 1 ≤ (i 1).val ∧ (i 1).val < win2_2.index t (1 : Fin 2) * 1 + 1; omega

/-- The output array after the region: the exact product of the two arrays as the region found them. -/
theorem final (c : Dev nD) :
    (dat2 V c).arrAt 2 cfg2.N = ExactProduct.mm (M := 100000) (K := 64) (N := 1) (V c main_v49) (V c main_arg5) :=
  (dat2 V c).arrAt_eq_of_cover 2 _ (fun t _ => flushed_eq V c t) (cover)

end Cert.KernelIdeal.Region2

end
-- ==== Proof.Region3.lean ====
/-
  Region 3: bias and logistic function, row-tiled. Each grid point t loads rows 10000·t … 10000·t + 9999 of the aggregated column
  and the one bias entry, adds the bias and applies v ↦ 1 / (1 + e^(0 − v)) entry by entry. The ten row blocks tile the
  output, so the output array ends holding that function of the two arrays as the region found them.
-/
import proofs.«169478_j1786706395263_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The logistic function as the kernel spells it: 1.0 / (1.0 + e^(0.0 − v)). -/
def sigmoidCell (v : EReal) : EReal :=
  FloatOps.divf (F := Ideal) (Scalar.ofBits (F := Ideal) .f32 0x3F800000#32)
    (FloatOps.addf (F := Ideal) (Scalar.ofBits (F := Ideal) .f32 0x3F800000#32)
      (FloatOps.exp (F := Ideal) (FloatOps.subf (F := Ideal) (Scalar.ofBits (F := Ideal) .f32 0x00000000#32) v)))

/-- The whole output: the cell function of (entry + the bias row's entry in the same column), at every index. -/
def whole (A : S100000x1.Idx → EReal) (B : S1x1.Idx → EReal) : S100000x1.Idx → EReal :=
  fun i => sigmoidCell (A i + B (ix2 (0 : Fin 1) (i 1)))

/-- The index maps over the ten grid points: the input and output windows move down the rows together, the bias row stays. -/
theorem idx_facts : ∀ t : Fin cfg3.N, win3_0.index t (0 : Fin 2) = win3_2.index t (0 : Fin 2) ∧ win3_0.index t (1 : Fin 2) = 0
    ∧ win3_1.index t (0 : Fin 2) = 0 ∧ win3_1.index t (1 : Fin 2) = 0 ∧ win3_2.index t (1 : Fin 2) = 0 ∧ win3_2.index t (0 : Fin 2) ≤ 9 :=
  (by decide +kernel : ∀ t : Fin grid3.N, _)

/-- Every row block is some point's. -/
theorem idx_onto : ∀ q : Fin 10, ∃ t : Fin cfg3.N, win3_2.index t (0 : Fin 2) = q.val :=
  (by decide +kernel : ∀ q : Fin 10, ∃ t : Fin grid3.N, _)

/-- The stored block at (p, q): the cell function of the block's entry plus the bias row's entry in column q. -/
theorem pay_apply (x0 : Vec Ideal S10000x1 .f32) (x1 : Vec Ideal S1x1 .f32) (p : Fin 10000) (q : Fin 1) :
    k3_pay1 (F := Ideal) x0 x1 (ix2 p q) = sigmoidCell (x0 (ix2 p q) + x1 (ix2 (0 : Fin 1) q)) := by
  have hb : broadcastTo S10000x1 x1 broadcasts_S1x1_S10000x1 (ix2 p q) = x1 (ix2 (0 : Fin 1) q) :=
    broadcastTo_1b_ab_apply (a := 10000) (b := 1) x1 broadcasts_S1x1_S10000x1 p q
  unfold k3_pay1 sigmoidCell
  simp only [shapeCast_self]
  rw [← hb]
  rfl

/-- The stored block at (p, q) is the whole output at the array index i, once the blocks are known to be the arrays' rows. -/
theorem block (A : S100000x1.Idx → EReal) (B : S1x1.Idx → EReal) (x0 : Vec Ideal S10000x1 .f32) (x1 : Vec Ideal S1x1 .f32)
    (i : S100000x1.Idx) (p : Fin 10000) (q : Fin 1)
    (h0 : x0 (ix2 p q) = A i) (h1 : x1 (ix2 (0 : Fin 1) q) = B (ix2 (0 : Fin 1) (i 1))) :
    k3_pay1 (F := Ideal) x0 x1 (ix2 p q) = whole A B i := by
  rw [pay_apply, h0, h1]
  rfl

/-- What point t writes back is block t of the whole output over the arrays as the region found them. -/
theorem flushed_eq (c : Dev nD) (t : Fin cfg3.N) :
    (dat3 V c).flushed 2 t = ((cfg3.win 2).blk t).view.read (Elt Ideal) (whole (V c main_v62) (V c main_v63)) := by
  show (cfg3.win 2).cut (grid3.coords t) ((dat3 V c).after 2 t) = _
  rw [after3_2]
  unfold out3_2
  rw [View.canon_unit_zero hz]
  simp only [View.ld_unit_zero (S := S10000x1) hz, View.ld_unit_zero (S := S1x1) hz]
  obtain ⟨e0, e1, e2, e3, e4, e5⟩ := idx_facts t
  funext j
  obtain ⟨p, q, rfl⟩ : ∃ (p : Fin 10000) (q : Fin 1), j = ix2 p q := ⟨j 0, j 1, eq_ix2 j⟩
  refine block (V c main_v62) (V c main_v63) (iblk3 V c 0 t) (iblk3 V c 1 t) (((cfg3.win 2).blk t).view.emb (ix2 p q)) p q ?_ ?_
  · show V c main_v62 (((cfg3.win 0).blk t).view.emb (ix2 p q)) = V c main_v62 (((cfg3.win 2).blk t).view.emb (ix2 p q))
    refine congrArg _ (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 1 + 1 * q.val = win3_2.index t (1 : Fin 2) * 1 + 1 * q.val; omega
  · show V c main_v63 (((cfg3.win 1).blk t).view.emb (ix2 (0 : Fin 1) q)) = V c main_v63 (ix2 (0 : Fin 1) ((((cfg3.win 2).blk t).view.emb (ix2 p q)) 1))
    refine congrArg _ (funext fun a => Fin.ext ?_)
    match a with
    | ⟨0, _⟩ => show win3_1.index t (0 : Fin 2) * 1 + 1 * 0 = 0; omega
    | ⟨1, _⟩ => show win3_1.index t (1 : Fin 2) * 1 + 1 * q.val = win3_2.index t (1 : Fin 2) * 1 + 1 * q.val; omega

/-- An index of the output array is in point t's block iff each coordinate is in the block's range. -/
theorem mem_blk (t : Fin cfg3.N) (i : S100000x1.Idx) :
    i ∈ ((cfg3.win 2).blk t).view.set ↔ ∀ a : Fin 2, win3_2.index t a * S10000x1.size a ≤ (i a).val ∧ (i a).val < win3_2.index t a * S10000x1.size a + S10000x1.size a := by
  show i ∈ ((View.whole main_v64).slice (win3_2.rect t)).set ↔ _
  rw [View.set_slice_whole, Rect.mem_set_unit]
  exact Iff.rfl

/-- The ten row blocks cover the output: row r is in block r / 10000. -/
theorem cover (i : S100000x1.Idx) : ∃ t : Fin cfg3.N, (cfg3.win 2).flush t = true ∧ i ∈ ((cfg3.win 2).blk t).view.set := by
  have hi0 : (i 0).val < 100000 := (i 0).isLt
  have hi1 : (i 1).val < 1 := (i 1).isLt
  obtain ⟨t, ht⟩ := idx_onto ⟨(i 0).val / 10000, by omega⟩
  obtain ⟨e0, e1, e2, e3, e4, e5⟩ := idx_facts t
  have ht' : win3_2.index t (0 : Fin 2) = (i 0).val / 10000 := ht
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 1 ≤ (i 1).val ∧ (i 1).val < win3_2.index t (1 : Fin 2) * 1 + 1; omega

/-- The output array after the region: the whole output over the two arrays as the region found them. -/
theorem final (c : Dev nD) : (dat3 V c).arrAt 2 cfg3.N = whole (V c main_v62) (V c main_v63) :=
  (dat3 V c).arrAt_eq_of_cover 2 _ (fun t _ => flushed_eq V c t) (cover)

end Cert.KernelIdeal.Region3

end
-- ==== Proof.Activations.lean ====
/-
  The two activations, the reference's spelling against the kernel's, on the extended reals.
  Exponential linear unit: the reference computes where(v > 0, v, 1.0 · expm1(where(v > 0, 0, v))), the kernel
  where(v > 0, v, e^v − 1.0). Where v > 0 both are v; elsewhere the inner select is v, expm1 v = e^v − 1, the word 1.0 is
  the real 1 and 1 · z = z. Logistic function: the reference computes 1.0 / (1.0 + e^(−v)), the kernel
  1.0 / (1.0 + e^(0.0 − v)), and 0 − v = −v. Neither identity needs v to be finite.
  At the array level the bias enters the reference as a vector copied into every row, the kernel as a one-row matrix
  read at row 0: the same entry.
-/
import proofs.«169478_j1786706395263_1_alg».proof.Proof.Region1
import proofs.«169478_j1786706395263_1_alg».proof.Proof.Region3
import proofs.«169478_j1786706395263_1_alg».proof.Proof.LibExactProduct
import Idealize.ShloMosaic.PureOps.Ideal.Laws
import Idealize.ShloMosaic.PureOps.IdealRules
import Idealize.ShloMosaic.Lib.ValueLayout

noncomputable section

namespace Cert.Activations

open Idealize.ShloMosaic Idealize.ShloMosaic.ValueIdx

/-- The word 1.0 is the real number 1. -/
theorem one_word : Ideal.ofBits .f32 0x3F800000#32 = 1 := IdealRules.sign_bit.ideal_onePat .f32

/-! ## One entry -/

/-- The reference's exponential linear unit at one entry. -/
def refEluCell (v : EReal) : EReal :=
  Scalar.select (FloatOps.cmpf (F := Ideal) .ogt v (Ideal.ofBits .f32 0x00000000#32)) v
    (FloatOps.mulf (F := Ideal) (Ideal.ofBits .f32 0x3F800000#32)
      (FloatOps.hostUnary (F := Ideal) .expm1
        (Scalar.select (FloatOps.cmpf (F := Ideal) .ogt v (Ideal.ofBits .f32 0x00000000#32)) (Ideal.ofBits .f32 0x00000000#32) v)))

theorem refEluCell_eq (v : EReal) : refEluCell v = Cert.KernelIdeal.Region1.eluCell v := by
  unfold refEluCell Cert.KernelIdeal.Region1.eluCell Scalar.select
  by_cases h : FloatOps.cmpf (F := Ideal) .ogt v (Ideal.ofBits .f32 0x00000000#32) = 1
  · rw [if_pos h]; exact (if_pos h).symm
  · rw [if_neg h, if_neg h]
    refine Eq.trans ?_ (if_neg h).symm
    show Ideal.ofBits .f32 0x3F800000#32 * (Ideal.exp v - 1) = Ideal.exp v - Ideal.ofBits .f32 0x3F800000#32
    rw [one_word, one_mul]

/-- The reference's logistic function at one entry. -/
def refSigmoidCell (v : EReal) : EReal :=
  FloatOps.hostDivf (F := Ideal) (Ideal.ofBits .f32 0x3F800000#32)
    (FloatOps.addf (F := Ideal) (Ideal.ofBits .f32 0x3F800000#32) (FloatOps.hostUnary (F := Ideal) .exp (FloatOps.hostNegf (F := Ideal) v)))

theorem refSigmoidCell_eq (v : EReal) : refSigmoidCell v = Cert.KernelIdeal.Region3.sigmoidCell v := by
  show Ideal.div (Ideal.ofBits .f32 0x3F800000#32) (Ideal.ofBits .f32 0x3F800000#32 + Ideal.exp (-v))
    = Ideal.div (Ideal.ofBits .f32 0x3F800000#32) (Ideal.ofBits .f32 0x3F800000#32 + Ideal.exp (Ideal.ofBits .f32 0x00000000#32 - v))
  rw [Ideal.ofBits_zero_f32, zero_sub]

/-! ## Whole arrays -/

/-- The reference's bias and exponential linear unit over a [100000, 64] array: the bias vector copied into every row
    and added, then the unit entry by entry; `Z` and `O` are its arrays of zeros and of ones. -/
def refEluArr (A : (⟨2, ![100000, 64]⟩ : Shape).Idx → EReal) (bp : (⟨1, ![64]⟩ : Shape).Idx → EReal)
    (h1 : (⟨1, ![64]⟩ : Shape).BroadcastsInDim ⟨2, ![1, 64]⟩ ![1])
    (h2 : (⟨2, ![1, 64]⟩ : Shape).BroadcastsInDim ⟨2, ![100000, 64]⟩ ![0, 1])
    (Z O : FVec Ideal ⟨2, ![100000, 64]⟩ .f32) : FVec Ideal ⟨2, ![100000, 64]⟩ .f32 :=
  select (cmpf .ogt (addf (F := Ideal) (φ := .f32) A (broadcastInDim ⟨2, ![100000, 64]⟩ ![0, 1] h2 (broadcastInDim ⟨2, ![1, 64]⟩ ![1] h1 bp))) Z)
    (addf (F := Ideal) (φ := .f32) A (broadcastInDim ⟨2, ![100000, 64]⟩ ![0, 1] h2 (broadcastInDim ⟨2, ![1, 64]⟩ ![1] h1 bp)))
    (mulf O (Host.expm1 (select (cmpf .ogt (addf (F := Ideal) (φ := .f32) A (broadcastInDim ⟨2, ![100000, 64]⟩ ![0, 1] h2 (broadcastInDim ⟨2, ![1, 64]⟩ ![1] h1 bp))) Z) Z
      (addf (F := Ideal) (φ := .f32) A (broadcastInDim ⟨2, ![100000, 64]⟩ ![0, 1] h2 (broadcastInDim ⟨2, ![1, 64]⟩ ![1] h1 bp))))))

theorem elu_arrays (A : (⟨2, ![100000, 64]⟩ : Shape).Idx → EReal) (bp : (⟨1, ![64]⟩ : Shape).Idx → EReal)
    (h1 : (⟨1, ![64]⟩ : Shape).BroadcastsInDim ⟨2, ![1, 64]⟩ ![1])
    (h2 : (⟨2, ![1, 64]⟩ : Shape).BroadcastsInDim ⟨2, ![100000, 64]⟩ ![0, 1])
    (hc : (⟨1, ![64]⟩ : Shape).ShapeCasts ⟨2, ![1, 64]⟩)
    (Z O : FVec Ideal ⟨2, ![100000, 64]⟩ .f32) (hZ : ∀ i, Z i = Ideal.ofBits .f32 0x00000000#32) (hO : ∀ i, O i = Ideal.ofBits .f32 0x3F800000#32) :
    refEluArr A bp h1 h2 Z O = Cert.KernelIdeal.Region1.whole A (shapeCast ⟨2, ![1, 64]⟩ bp hc) := by
  funext i
  obtain ⟨r, q, rfl⟩ : ∃ (r : Fin 100000) (q : Fin 64), i = ix2 r q := ⟨i 0, i 1, eq_ix2 i⟩
  have hb := ExactProduct.rowOfVector_apply (M := 100000) (N := 64) bp h1 h2 r q
  have hs := shapeCast_a_1a_apply bp hc (0 : Fin 1) q
  have hl : refEluArr A bp h1 h2 Z O (ix2 r q) = refEluCell (A (ix2 r q) + bp (ix1 q)) := by
    rw [← hb]
    show Scalar.select (FloatOps.cmpf (F := Ideal) .ogt _ (Z (ix2 r q))) _ (FloatOps.mulf (F := Ideal) (O (ix2 r q)) (FloatOps.hostUnary (F := Ideal) .expm1
      (Scalar.select (FloatOps.cmpf (F := Ideal) .ogt _ (Z (ix2 r q))) (Z (ix2 r q)) _))) = _
    rw [hZ, hO]
    rfl
  have hr : Cert.KernelIdeal.Region1.whole A (shapeCast ⟨2, ![1, 64]⟩ bp hc) (ix2 r q)
      = Cert.KernelIdeal.Region1.eluCell (A (ix2 r q) + shapeCast ⟨2, ![1, 64]⟩ bp hc (ix2 (0 : Fin 1) q)) := rfl
  rw [hl, hr, hs]
  exact refEluCell_eq _

/-- The reference's bias and logistic function over a [100000, 1] array; `O` is its array of ones. -/
def refSigmoidArr (A : (⟨2, ![100000, 1]⟩ : Shape).Idx → EReal) (bp : (⟨1, ![1]⟩ : Shape).Idx → EReal)
    (h1 : (⟨1, ![1]⟩ : Shape).BroadcastsInDim ⟨2, ![1, 1]⟩ ![1])
    (h2 : (⟨2, ![1, 1]⟩ : Shape).BroadcastsInDim ⟨2, ![100000, 1]⟩ ![0, 1])
    (O : FVec Ideal ⟨2, ![100000, 1]⟩ .f32) : FVec Ideal ⟨2, ![100000, 1]⟩ .f32 :=
  Host.divf O (addf O (Host.exp (Host.negf
    (addf (F := Ideal) (φ := .f32) A (broadcastInDim ⟨2, ![100000, 1]⟩ ![0, 1] h2 (broadcastInDim ⟨2, ![1, 1]⟩ ![1] h1 bp))))))

theorem sigmoid_arrays (A : (⟨2, ![100000, 1]⟩ : Shape).Idx → EReal) (bp : (⟨1, ![1]⟩ : Shape).Idx → EReal)
    (h1 : (⟨1, ![1]⟩ : Shape).BroadcastsInDim ⟨2, ![1, 1]⟩ ![1])
    (h2 : (⟨2, ![1, 1]⟩ : Shape).BroadcastsInDim ⟨2, ![100000, 1]⟩ ![0, 1])
    (hc : (⟨1, ![1]⟩ : Shape).ShapeCasts ⟨2, ![1, 1]⟩)
    (O : FVec Ideal ⟨2, ![100000, 1]⟩ .f32) (hO : ∀ i, O i = Ideal.ofBits .f32 0x3F800000#32) :
    refSigmoidArr A bp h1 h2 O = Cert.KernelIdeal.Region3.whole A (shapeCast ⟨2, ![1, 1]⟩ bp hc) := by
  funext i
  obtain ⟨r, q, rfl⟩ : ∃ (r : Fin 100000) (q : Fin 1), i = ix2 r q := ⟨i 0, i 1, eq_ix2 i⟩
  have hb := ExactProduct.rowOfVector_apply (M := 100000) (N := 1) bp h1 h2 r q
  have hs := shapeCast_a_1a_apply bp hc (0 : Fin 1) q
  have hl : refSigmoidArr A bp h1 h2 O (ix2 r q) = refSigmoidCell (A (ix2 r q) + bp (ix1 q)) := by
    rw [← hb]
    show FloatOps.hostDivf (F := Ideal) (O (ix2 r q)) (FloatOps.addf (F := Ideal) (O (ix2 r q)) _) = _
    rw [hO]
    rfl
  have hr : Cert.KernelIdeal.Region3.whole A (shapeCast ⟨2, ![1, 1]⟩ bp hc) (ix2 r q)
      = Cert.KernelIdeal.Region3.sigmoidCell (A (ix2 r q) + shapeCast ⟨2, ![1, 1]⟩ bp hc (ix2 (0 : Fin 1) q)) := rfl
  rw [hl, hr, hs]
  exact refSigmoidCell_eq _

end Cert.Activations

end
-- ==== Proof.Sim.lean ====
import proofs.«169478_j1786706395263_1_alg».proof.Proof.Gen.KernelIdeal.Frame
import proofs.«169478_j1786706395263_1_alg».proof.Proof.RefSeg
import proofs.«169478_j1786706395263_1_alg».proof.Proof.Prep
import proofs.«169478_j1786706395263_1_alg».proof.Proof.Region0
import proofs.«169478_j1786706395263_1_alg».proof.Proof.Region1
import proofs.«169478_j1786706395263_1_alg».proof.Proof.Region2
import proofs.«169478_j1786706395263_1_alg».proof.Proof.Region3
import proofs.«169478_j1786706395263_1_alg».proof.Proof.Activations
import proofs.«169478_j1786706395263_1_alg».proof.Proof.LibExactProduct
import proofs.«169478_j1786706395263_1_alg».proof.Proof.LibFoldAppend
import Idealize.ShloMosaic.Lib.StableHlo.Run
import Idealize.ShloMosaic.PureOps.Ideal

set_option maxRecDepth 16384

/-
  THE SIMULATION. The kernel's program is: graph preparation on the host; a row-tiled matrix product x·W1 (region 0); on the
  host every edge's normalized message gathered from its source row and summed at its target; bias and exponential linear
  unit (region 1); the product with W2 (region 2); the second aggregation on the host; bias and logistic function
  (region 3). The reference runs the same preparation and the same two aggregations, word for word, and spells the two
  products as whole contractions and the two activations with its own selects. Boundary by boundary — the reference's
  line cut where the kernel passes between host and region — the buffers both programs carry forward (source indices,
  target indices, normalized edge weights, the arguments not yet consumed, and the stage's result) hold equal values:
  a host stretch by evaluating both folds at the buffer and comparing the two terms over equal leaves; a matrix product
  because the tiled product and the whole contraction are both Σ_k x(r,k)·w(k,c); an activation by the entrywise
  identities of the two spellings.
-/
noncomputable section

namespace Cert.Sim

open Cert.KernelIdeal.Gen Cert.ReferenceIdeal.Gen Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
variable (V' : Valuation Cert.ReferenceIdeal.τ Cert.ReferenceIdeal.sig (Elt Ideal))

/-- The arguments' contents agree: the reference's launch contents at each argument are the kernel memory's. -/
structure Agree : Prop where
  a0 : V' (Proc.devRef .tc Cert.ReferenceIdeal.main_arg0) = m ((c : Thread Cert.KernelIdeal.nD Cert.KernelIdeal.τ).loc Cert.KernelIdeal.main_arg0)
  a1 : V' (Proc.devRef .tc Cert.ReferenceIdeal.main_arg1) = m ((c : Thread Cert.KernelIdeal.nD Cert.KernelIdeal.τ).loc Cert.KernelIdeal.main_arg1)
  a2 : V' (Proc.devRef .tc Cert.ReferenceIdeal.main_arg2) = m ((c : Thread Cert.KernelIdeal.nD Cert.KernelIdeal.τ).loc Cert.KernelIdeal.main_arg2)
  a3 : V' (Proc.devRef .tc Cert.ReferenceIdeal.main_arg3) = m ((c : Thread Cert.KernelIdeal.nD Cert.KernelIdeal.τ).loc Cert.KernelIdeal.main_arg3)
  a4 : V' (Proc.devRef .tc Cert.ReferenceIdeal.main_arg4) = m ((c : Thread Cert.KernelIdeal.nD Cert.KernelIdeal.τ).loc Cert.KernelIdeal.main_arg4)
  a5 : V' (Proc.devRef .tc Cert.ReferenceIdeal.main_arg5) = m ((c : Thread Cert.KernelIdeal.nD Cert.KernelIdeal.τ).loc Cert.KernelIdeal.main_arg5)
  a6 : V' (Proc.devRef .tc Cert.ReferenceIdeal.main_arg6) = m ((c : Thread Cert.KernelIdeal.nD Cert.KernelIdeal.τ).loc Cert.KernelIdeal.main_arg6)

/-! ## The reference's contents at the seven cuts -/
def R1 : Valuation Cert.ReferenceIdeal.τ Cert.ReferenceIdeal.sig (Elt Ideal) := after (Cert.ReferenceIdeal.RefRun.seg1 (F := Ideal)) V'
def R2 : Valuation Cert.ReferenceIdeal.τ Cert.ReferenceIdeal.sig (Elt Ideal) := after (Cert.ReferenceIdeal.RefRun.seg2 (F := Ideal)) (R1 V')
def R3 : Valuation Cert.ReferenceIdeal.τ Cert.ReferenceIdeal.sig (Elt Ideal) := after (Cert.ReferenceIdeal.RefRun.seg3 (F := Ideal)) (R2 V')
def R4 : Valuation Cert.ReferenceIdeal.τ Cert.ReferenceIdeal.sig (Elt Ideal) := after (Cert.ReferenceIdeal.RefRun.seg4 (F := Ideal)) (R3 V')
def R5 : Valuation Cert.ReferenceIdeal.τ Cert.ReferenceIdeal.sig (Elt Ideal) := after (Cert.ReferenceIdeal.RefRun.seg5 (F := Ideal)) (R4 V')
def R6 : Valuation Cert.ReferenceIdeal.τ Cert.ReferenceIdeal.sig (Elt Ideal) := after (Cert.ReferenceIdeal.RefRun.seg6 (F := Ideal)) (R5 V')
def R7 : Valuation Cert.ReferenceIdeal.τ Cert.ReferenceIdeal.sig (Elt Ideal) := after (Cert.ReferenceIdeal.RefRun.seg7 (F := Ideal)) (R6 V')

theorem after_ops_eq : after (Cert.ReferenceIdeal.RefRun.ops (F := Ideal)) V' = R7 V' := Cert.ReferenceIdeal.RefRun.after_ops V'

/-! ## What each stretch leaves alone -/
theorem w3_arg0 : W3 m ρ c (Proc.devRef .tc Cert.KernelIdeal.main_arg0) = m ((c : Thread Cert.KernelIdeal.nD Cert.KernelIdeal.τ).loc Cert.KernelIdeal.main_arg0) := by
  dsimp only [W3, W2, W1, hostOps0_2, hostOps0_1, hostOps0]; after_results_simp <;> rfl
theorem w3_arg3 : W3 m ρ c (Proc.devRef .tc Cert.KernelIdeal.main_arg3) = m ((c : Thread Cert.KernelIdeal.nD Cert.KernelIdeal.τ).loc Cert.KernelIdeal.main_arg3) := by
  dsimp only [W3, W2, W1, hostOps0_2, hostOps0_1, hostOps0]; after_results_simp <;> rfl
theorem w3_arg4 : W3 m ρ c (Proc.devRef .tc Cert.KernelIdeal.main_arg4) = m ((c : Thread Cert.KernelIdeal.nD Cert.KernelIdeal.τ).loc Cert.KernelIdeal.main_arg4) := by
  dsimp only [W3, W2, W1, hostOps0_2, hostOps0_1, hostOps0]; after_results_simp <;> rfl
theorem w3_arg5 : W3 m ρ c (Proc.devRef .tc Cert.KernelIdeal.main_arg5) = m ((c : Thread Cert.KernelIdeal.nD Cert.KernelIdeal.τ).loc Cert.KernelIdeal.main_arg5) := by
  dsimp only [W3, W2, W1, hostOps0_2, hostOps0_1, hostOps0]; after_results_simp <;> rfl
theorem w3_arg6 : W3 m ρ c (Proc.devRef .tc Cert.KernelIdeal.main_arg6) = m ((c : Thread Cert.KernelIdeal.nD Cert.KernelIdeal.τ).loc Cert.KernelIdeal.main_arg6) := by
  dsimp only [W3, W2, W1, hostOps0_2, hostOps0_1, hostOps0]; after_results_simp <;> rfl
theorem k43_v3 : W4 m ρ c (Proc.devRef .tc Cert.KernelIdeal.main_v3) = W3 m ρ c (Proc.devRef .tc Cert.KernelIdeal.main_v3) := W4_of_ne m ρ c Cert.KernelIdeal.main_v3 (by decide)
theorem k43_v6 : W4 m ρ c (Proc.devRef .tc Cert.KernelIdeal.main_v6) = W3 m ρ c (Proc.devRef .tc Cert.KernelIdeal.main_v6) := W4_of_ne m ρ c Cert.KernelIdeal.main_v6 (by decide)
theorem k43_v33 : W4 m ρ c (Proc.devRef .tc Cert.KernelIdeal.main_v33) = W3 m ρ c (Proc.devRef .tc Cert.KernelIdeal.main_v33) := W4_of_ne m ρ c Cert.KernelIdeal.main_v33 (by decide)
theorem k43_arg4 : W4 m ρ c (Proc.devRef .tc Cert.KernelIdeal.main_arg4) = W3 m ρ c (Proc.devRef .tc Cert.KernelIdeal.main_arg4) := W4_of_ne m ρ c Cert.KernelIdeal.main_arg4 (by decide)
theorem k43_arg5 : W4 m ρ c (Proc.devRef .tc Cert.KernelIdeal.main_arg5) = W3 m ρ c (Proc.devRef .tc Cert.KernelIdeal.main_arg5) := W4_of_ne m ρ c Cert.KernelIdeal.main_arg5 (by decide)
theorem k43_arg6 : W4 m ρ c (Proc.devRef .tc Cert.KernelIdeal.main_arg6) = W3 m ρ c (Proc.devRef .tc Cert.KernelIdeal.main_arg6) := W4_of_ne m ρ c Cert.KernelIdeal.main_arg6 (by decide)
theorem k54_v3 : W5 m ρ c (Proc.devRef .tc Cert.KernelIdeal.main_v3) = W4 m ρ c (Proc.devRef .tc Cert.KernelIdeal.main_v3) := by
  dsimp only [W5, hostOps1]; after_results_simp <;> rfl
theorem k54_v6 : W5 m ρ c (Proc.devRef .tc Cert.KernelIdeal.main_v6) = W4 m ρ c (Proc.devRef .tc Cert.KernelIdeal.main_v6) := by
  dsimp only [W5, hostOps1]; after_results_simp <;> rfl
theorem k54_v33 : W5 m ρ c (Proc.devRef .tc Cert.KernelIdeal.main_v33) = W4 m ρ c (Proc.devRef .tc Cert.KernelIdeal.main_v33) := by
  dsimp only [W5, hostOps1]; after_results_simp <;> rfl
theorem k54_arg5 : W5 m ρ c (Proc.devRef .tc Cert.KernelIdeal.main_arg5) = W4 m ρ c (Proc.devRef .tc Cert.KernelIdeal.main_arg5) := by
  dsimp only [W5, hostOps1]; after_results_simp <;> rfl
theorem k54_arg6 : W5 m ρ c (Proc.devRef .tc Cert.KernelIdeal.main_arg6) = W4 m ρ c (Proc.devRef .tc Cert.KernelIdeal.main_arg6) := by
  dsimp only [W5, hostOps1]; after_results_simp <;> rfl
theorem k65_v3 : W6 m ρ c (Proc.devRef .tc Cert.KernelIdeal.main_v3) = W5 m ρ c (Proc.devRef .tc Cert.KernelIdeal.main_v3) := W6_of_ne m ρ c Cert.KernelIdeal.main_v3 (by decide)
theorem k65_v6 : W6 m ρ c (Proc.devRef .tc Cert.KernelIdeal.main_v6) = W5 m ρ c (Proc.devRef .tc Cert.KernelIdeal.main_v6) := W6_of_ne m ρ c Cert.KernelIdeal.main_v6 (by decide)
theorem k65_v33 : W6 m ρ c (Proc.devRef .tc Cert.KernelIdeal.main_v33) = W5 m ρ c (Proc.devRef .tc Cert.KernelIdeal.main_v33) := W6_of_ne m ρ c Cert.KernelIdeal.main_v33 (by decide)
theorem k65_arg5 : W6 m ρ c (Proc.devRef .tc Cert.KernelIdeal.main_arg5) = W5 m ρ c (Proc.devRef .tc Cert.KernelIdeal.main_arg5) := W6_of_ne m ρ c Cert.KernelIdeal.main_arg5 (by decide)
theorem k65_arg6 : W6 m ρ c (Proc.devRef .tc Cert.KernelIdeal.main_arg6) = W5 m ρ c (Proc.devRef .tc Cert.KernelIdeal.main_arg6) := W6_of_ne m ρ c Cert.KernelIdeal.main_arg6 (by decide)
theorem k76_v3 : W7 m ρ c (Proc.devRef .tc Cert.KernelIdeal.main_v3) = W6 m ρ c (Proc.devRef .tc Cert.KernelIdeal.main_v3) := W7_of_ne m ρ c Cert.KernelIdeal.main_v3 (by decide)
theorem k76_v6 : W7 m ρ c (Proc.devRef .tc Cert.KernelIdeal.main_v6) = W6 m ρ c (Proc.devRef .tc Cert.KernelIdeal.main_v6) := W7_of_ne m ρ c Cert.KernelIdeal.main_v6 (by decide)
theorem k76_v33 : W7 m ρ c (Proc.devRef .tc Cert.KernelIdeal.main_v33) = W6 m ρ c (Proc.devRef .tc Cert.KernelIdeal.main_v33) := W7_of_ne m ρ c Cert.KernelIdeal.main_v33 (by decide)
theorem k76_arg6 : W7 m ρ c (Proc.devRef .tc Cert.KernelIdeal.main_arg6) = W6 m ρ c (Proc.devRef .tc Cert.KernelIdeal.main_arg6) := W7_of_ne m ρ c Cert.KernelIdeal.main_arg6 (by decide)
theorem r1_arg0 : R1 V' (Proc.devRef .tc Cert.ReferenceIdeal.main_arg0) = V' (Proc.devRef .tc Cert.ReferenceIdeal.main_arg0) := by
  unfold R1; dsimp only [Cert.ReferenceIdeal.RefRun.seg1]; after_results_simp <;> rfl
theorem r1_arg3 : R1 V' (Proc.devRef .tc Cert.ReferenceIdeal.main_arg3) = V' (Proc.devRef .tc Cert.ReferenceIdeal.main_arg3) := by
  unfold R1; dsimp only [Cert.ReferenceIdeal.RefRun.seg1]; after_results_simp <;> rfl
theorem r1_arg4 : R1 V' (Proc.devRef .tc Cert.ReferenceIdeal.main_arg4) = V' (Proc.devRef .tc Cert.ReferenceIdeal.main_arg4) := by
  unfold R1; dsimp only [Cert.ReferenceIdeal.RefRun.seg1]; after_results_simp <;> rfl
theorem r1_arg5 : R1 V' (Proc.devRef .tc Cert.ReferenceIdeal.main_arg5) = V' (Proc.devRef .tc Cert.ReferenceIdeal.main_arg5) := by
  unfold R1; dsimp only [Cert.ReferenceIdeal.RefRun.seg1]; after_results_simp <;> rfl
theorem r1_arg6 : R1 V' (Proc.devRef .tc Cert.ReferenceIdeal.main_arg6) = V' (Proc.devRef .tc Cert.ReferenceIdeal.main_arg6) := by
  unfold R1; dsimp only [Cert.ReferenceIdeal.RefRun.seg1]; after_results_simp <;> rfl
theorem r21_v3 : R2 V' (Proc.devRef .tc Cert.ReferenceIdeal.main_v3) = R1 V' (Proc.devRef .tc Cert.ReferenceIdeal.main_v3) := by
  unfold R2; dsimp only [Cert.ReferenceIdeal.RefRun.seg2]; after_results_simp <;> rfl
theorem r21_v6 : R2 V' (Proc.devRef .tc Cert.ReferenceIdeal.main_v6) = R1 V' (Proc.devRef .tc Cert.ReferenceIdeal.main_v6) := by
  unfold R2; dsimp only [Cert.ReferenceIdeal.RefRun.seg2]; after_results_simp <;> rfl
theorem r21_v33 : R2 V' (Proc.devRef .tc Cert.ReferenceIdeal.main_v33) = R1 V' (Proc.devRef .tc Cert.ReferenceIdeal.main_v33) := by
  unfold R2; dsimp only [Cert.ReferenceIdeal.RefRun.seg2]; after_results_simp <;> rfl
theorem r21_arg4 : R2 V' (Proc.devRef .tc Cert.ReferenceIdeal.main_arg4) = R1 V' (Proc.devRef .tc Cert.ReferenceIdeal.main_arg4) := by
  unfold R2; dsimp only [Cert.ReferenceIdeal.RefRun.seg2]; after_results_simp <;> rfl
theorem r21_arg5 : R2 V' (Proc.devRef .tc Cert.ReferenceIdeal.main_arg5) = R1 V' (Proc.devRef .tc Cert.ReferenceIdeal.main_arg5) := by
  unfold R2; dsimp only [Cert.ReferenceIdeal.RefRun.seg2]; after_results_simp <;> rfl
theorem r21_arg6 : R2 V' (Proc.devRef .tc Cert.ReferenceIdeal.main_arg6) = R1 V' (Proc.devRef .tc Cert.ReferenceIdeal.main_arg6) := by
  unfold R2; dsimp only [Cert.ReferenceIdeal.RefRun.seg2]; after_results_simp <;> rfl
theorem r32_v3 : R3 V' (Proc.devRef .tc Cert.ReferenceIdeal.main_v3) = R2 V' (Proc.devRef .tc Cert.ReferenceIdeal.main_v3) := by
  unfold R3; dsimp only [Cert.ReferenceIdeal.RefRun.seg3]; after_results_simp <;> rfl
theorem r32_v6 : R3 V' (Proc.devRef .tc Cert.ReferenceIdeal.main_v6) = R2 V' (Proc.devRef .tc Cert.ReferenceIdeal.main_v6) := by
  unfold R3; dsimp only [Cert.ReferenceIdeal.RefRun.seg3]; after_results_simp <;> rfl
theorem r32_v33 : R3 V' (Proc.devRef .tc Cert.ReferenceIdeal.main_v33) = R2 V' (Proc.devRef .tc Cert.ReferenceIdeal.main_v33) := by
  unfold R3; dsimp only [Cert.ReferenceIdeal.RefRun.seg3]; after_results_simp <;> rfl
theorem r32_arg4 : R3 V' (Proc.devRef .tc Cert.ReferenceIdeal.main_arg4) = R2 V' (Proc.devRef .tc Cert.ReferenceIdeal.main_arg4) := by
  unfold R3; dsimp only [Cert.ReferenceIdeal.RefRun.seg3]; after_results_simp <;> rfl
theorem r32_arg5 : R3 V' (Proc.devRef .tc Cert.ReferenceIdeal.main_arg5) = R2 V' (Proc.devRef .tc Cert.ReferenceIdeal.main_arg5) := by
  unfold R3; dsimp only [Cert.ReferenceIdeal.RefRun.seg3]; after_results_simp <;> rfl
theorem r32_arg6 : R3 V' (Proc.devRef .tc Cert.ReferenceIdeal.main_arg6) = R2 V' (Proc.devRef .tc Cert.ReferenceIdeal.main_arg6) := by
  unfold R3; dsimp only [Cert.ReferenceIdeal.RefRun.seg3]; after_results_simp <;> rfl
theorem r43_v3 : R4 V' (Proc.devRef .tc Cert.ReferenceIdeal.main_v3) = R3 V' (Proc.devRef .tc Cert.ReferenceIdeal.main_v3) := by
  unfold R4; dsimp only [Cert.ReferenceIdeal.RefRun.seg4]; after_results_simp <;> rfl
theorem r43_v6 : R4 V' (Proc.devRef .tc Cert.ReferenceIdeal.main_v6) = R3 V' (Proc.devRef .tc Cert.ReferenceIdeal.main_v6) := by
  unfold R4; dsimp only [Cert.ReferenceIdeal.RefRun.seg4]; after_results_simp <;> rfl
theorem r43_v33 : R4 V' (Proc.devRef .tc Cert.ReferenceIdeal.main_v33) = R3 V' (Proc.devRef .tc Cert.ReferenceIdeal.main_v33) := by
  unfold R4; dsimp only [Cert.ReferenceIdeal.RefRun.seg4]; after_results_simp <;> rfl
theorem r43_arg5 : R4 V' (Proc.devRef .tc Cert.ReferenceIdeal.main_arg5) = R3 V' (Proc.devRef .tc Cert.ReferenceIdeal.main_arg5) := by
  unfold R4; dsimp only [Cert.ReferenceIdeal.RefRun.seg4]; after_results_simp <;> rfl
theorem r43_arg6 : R4 V' (Proc.devRef .tc Cert.ReferenceIdeal.main_arg6) = R3 V' (Proc.devRef .tc Cert.ReferenceIdeal.main_arg6) := by
  unfold R4; dsimp only [Cert.ReferenceIdeal.RefRun.seg4]; after_results_simp <;> rfl
theorem r54_v3 : R5 V' (Proc.devRef .tc Cert.ReferenceIdeal.main_v3) = R4 V' (Proc.devRef .tc Cert.ReferenceIdeal.main_v3) := by
  unfold R5; dsimp only [Cert.ReferenceIdeal.RefRun.seg5]; after_results_simp <;> rfl
theorem r54_v6 : R5 V' (Proc.devRef .tc Cert.ReferenceIdeal.main_v6) = R4 V' (Proc.devRef .tc Cert.ReferenceIdeal.main_v6) := by
  unfold R5; dsimp only [Cert.ReferenceIdeal.RefRun.seg5]; after_results_simp <;> rfl
theorem r54_v33 : R5 V' (Proc.devRef .tc Cert.ReferenceIdeal.main_v33) = R4 V' (Proc.devRef .tc Cert.ReferenceIdeal.main_v33) := by
  unfold R5; dsimp only [Cert.ReferenceIdeal.RefRun.seg5]; after_results_simp <;> rfl
theorem r54_arg6 : R5 V' (Proc.devRef .tc Cert.ReferenceIdeal.main_arg6) = R4 V' (Proc.devRef .tc Cert.ReferenceIdeal.main_arg6) := by
  unfold R5; dsimp only [Cert.ReferenceIdeal.RefRun.seg5]; after_results_simp <;> rfl
theorem r65_arg6 : R6 V' (Proc.devRef .tc Cert.ReferenceIdeal.main_arg6) = R5 V' (Proc.devRef .tc Cert.ReferenceIdeal.main_arg6) := by
  unfold R6; dsimp only [Cert.ReferenceIdeal.RefRun.seg6]; after_results_simp <;> rfl

/-! ## Stage 1: the graph preparation -/

theorem s1_v3 (h : Agree m c V') : W3 m ρ c (Proc.devRef .tc Cert.KernelIdeal.main_v3) = R1 V' (Proc.devRef .tc Cert.ReferenceIdeal.main_v3) := by
  show after (hostOps0_2 (F := Ideal)) (after (hostOps0_1 (F := Ideal)) (after (hostOps0 (F := Ideal)) (W0 m ρ c))) (Proc.devRef .tc Cert.KernelIdeal.main_v3)
    = after (Cert.ReferenceIdeal.RefRun.seg1 (F := Ideal)) V' (Proc.devRef .tc Cert.ReferenceIdeal.main_v3)
  rw [Cert.KernelIdeal.Prep.hostOps0_split, Cert.ReferenceIdeal.Prep.seg1_split, LibFoldAppend.after_append, LibFoldAppend.after_append]
  exact norm_v3 _ _ (idx_v3 _ _ h.a1.symm)

theorem s1_v6 (h : Agree m c V') : W3 m ρ c (Proc.devRef .tc Cert.KernelIdeal.main_v6) = R1 V' (Proc.devRef .tc Cert.ReferenceIdeal.main_v6) := by
  show after (hostOps0_2 (F := Ideal)) (after (hostOps0_1 (F := Ideal)) (after (hostOps0 (F := Ideal)) (W0 m ρ c))) (Proc.devRef .tc Cert.KernelIdeal.main_v6)
    = after (Cert.ReferenceIdeal.RefRun.seg1 (F := Ideal)) V' (Proc.devRef .tc Cert.ReferenceIdeal.main_v6)
  rw [Cert.KernelIdeal.Prep.hostOps0_split, Cert.ReferenceIdeal.Prep.seg1_split, LibFoldAppend.after_append, LibFoldAppend.after_append]
  exact norm_v6 _ _ (idx_v6 _ _ h.a1.symm)

theorem s1_v33 (h : Agree m c V') : W3 m ρ c (Proc.devRef .tc Cert.KernelIdeal.main_v33) = R1 V' (Proc.devRef .tc Cert.ReferenceIdeal.main_v33) := by
  show after (hostOps0_2 (F := Ideal)) (after (hostOps0_1 (F := Ideal)) (after (hostOps0 (F := Ideal)) (W0 m ρ c))) (Proc.devRef .tc Cert.KernelIdeal.main_v33)
    = after (Cert.ReferenceIdeal.RefRun.seg1 (F := Ideal)) V' (Proc.devRef .tc Cert.ReferenceIdeal.main_v33)
  rw [Cert.KernelIdeal.Prep.hostOps0_split, Cert.ReferenceIdeal.Prep.seg1_split, LibFoldAppend.after_append, LibFoldAppend.after_append]
  exact norm_v33 _ _ (idx_arg2 _ _ h.a2.symm) (idx_v3 _ _ h.a1.symm) (idx_v6 _ _ h.a1.symm) (idx_v7 _ _)

/-! ## Stage 2: the first product -/

theorem s2_v34 (h : Agree m c V') : W4 m ρ c (Proc.devRef .tc Cert.KernelIdeal.main_v34) = R2 V' (Proc.devRef .tc Cert.ReferenceIdeal.main_v34) := by
  have hk : W4 m ρ c (Proc.devRef .tc Cert.KernelIdeal.main_v34) = ExactProduct.mm (M := 100000) (K := 128) (N := 64) (m ((c : Thread Cert.KernelIdeal.nD Cert.KernelIdeal.τ).loc Cert.KernelIdeal.main_arg0)) (m ((c : Thread Cert.KernelIdeal.nD Cert.KernelIdeal.τ).loc Cert.KernelIdeal.main_arg3)) := by
    rw [show W4 m ρ c (Proc.devRef .tc Cert.KernelIdeal.main_v34) = _ from W4_arr m ρ c 2, Cert.KernelIdeal.Region0.final]
    show ExactProduct.mm (M := 100000) (K := 128) (N := 64) (W3 m ρ c (Proc.devRef .tc Cert.KernelIdeal.main_arg0)) (W3 m ρ c (Proc.devRef .tc Cert.KernelIdeal.main_arg3)) = _
    rw [w3_arg0, w3_arg3]
  have hr : R2 V' (Proc.devRef .tc Cert.ReferenceIdeal.main_v34) = ExactProduct.mm (M := 100000) (K := 128) (N := 64) (V' (Proc.devRef .tc Cert.ReferenceIdeal.main_arg0)) (V' (Proc.devRef .tc Cert.ReferenceIdeal.main_arg3)) := by
    unfold R2; dsimp only [Cert.ReferenceIdeal.RefRun.seg2]; after_results_simp
    rw [r1_arg0, r1_arg3]
    exact ExactProduct.hostDot_eq_mm _ rfl none _ _
  rw [hk, hr, h.a0, h.a3]

/-! ## Stage 3: the first aggregation -/

attribute [local irreducible] Host.scatterAdd Host.gather in
theorem s3_v47 (h : Agree m c V') : W5 m ρ c (Proc.devRef .tc Cert.KernelIdeal.main_v47) = R3 V' (Proc.devRef .tc Cert.ReferenceIdeal.main_v47) := by
  have e34 := s2_v34 m ρ c V' h
  have e3 : W4 m ρ c (Proc.devRef .tc Cert.KernelIdeal.main_v3) = R2 V' (Proc.devRef .tc Cert.ReferenceIdeal.main_v3) := (k43_v3 m ρ c).trans ((s1_v3 m ρ c V' h).trans (r21_v3 V').symm)
  have e6 : W4 m ρ c (Proc.devRef .tc Cert.KernelIdeal.main_v6) = R2 V' (Proc.devRef .tc Cert.ReferenceIdeal.main_v6) := (k43_v6 m ρ c).trans ((s1_v6 m ρ c V' h).trans (r21_v6 V').symm)
  have e33 : W4 m ρ c (Proc.devRef .tc Cert.KernelIdeal.main_v33) = R2 V' (Proc.devRef .tc Cert.ReferenceIdeal.main_v33) := (k43_v33 m ρ c).trans ((s1_v33 m ρ c V' h).trans (r21_v33 V').symm)
  unfold R3; dsimp only [W5, hostOps1, Cert.ReferenceIdeal.RefRun.seg3]; after_results_simp
  rw [e34, e3, e6, e33]
  rfl

/-- The first bias as the kernel lays it out: the vector as one row. -/
theorem s3_v48 : W5 m ρ c (Proc.devRef .tc Cert.KernelIdeal.main_v48) = shapeCast ⟨2, ![1, 64]⟩ (m ((c : Thread Cert.KernelIdeal.nD Cert.KernelIdeal.τ).loc Cert.KernelIdeal.main_arg4)) Cert.KernelIdeal.Facts₀.shapeCasts_S64_S1x64 := by
  have e : W4 m ρ c (Proc.devRef .tc Cert.KernelIdeal.main_arg4) = m ((c : Thread Cert.KernelIdeal.nD Cert.KernelIdeal.τ).loc Cert.KernelIdeal.main_arg4) := (k43_arg4 m ρ c).trans (w3_arg4 m ρ c)
  dsimp only [W5, hostOps1]; after_results_simp
  rw [e]
  rfl

/-- The reference's elu stretch from any entry contents: the bias copied into every row and added, then the unit, in
    the reference's own spelling (the typed references of the two inlined selects are transports along `T = T`). -/
theorem elu_ref (Ur : Valuation Cert.ReferenceIdeal.τ Cert.ReferenceIdeal.sig (Elt Ideal)) :
    after (Cert.ReferenceIdeal.RefRun.seg4 (F := Ideal)) Ur (Proc.devRef .tc Cert.ReferenceIdeal.main_v51) = Cert.Activations.refEluArr (Ur (Proc.devRef .tc Cert.ReferenceIdeal.main_v47)) (Ur (Proc.devRef .tc Cert.ReferenceIdeal.main_arg4))
      Cert.ReferenceIdeal.Facts₀.bcast_S64_S1x64_1 Cert.ReferenceIdeal.Facts₀.bcast_S1x64_S100000x64_0_1
      (broadcastInDim Cert.ReferenceIdeal.S100000x64 ![] Cert.ReferenceIdeal.Facts₀.bcast_S_S100000x64 (constant (F := Ideal) Cert.ReferenceIdeal.S_ .f32 0x00000000#32))
      (broadcastInDim Cert.ReferenceIdeal.S100000x64 ![] Cert.ReferenceIdeal.Facts₀.bcast_S_S100000x64 (constant (F := Ideal) Cert.ReferenceIdeal.S_ .f32 0x3F800000#32)) := by
  dsimp only [Cert.ReferenceIdeal.RefRun.seg4]
  after_results_simp
  simp only [cast_cast, cast_eq]
  unfold Cert.Activations.refEluArr
  rfl

/-- The reference's logistic stretch from any entry contents. -/
theorem sigmoid_ref (Ur : Valuation Cert.ReferenceIdeal.τ Cert.ReferenceIdeal.sig (Elt Ideal)) :
    after (Cert.ReferenceIdeal.RefRun.seg7 (F := Ideal)) Ur (Proc.devRef .tc Cert.ReferenceIdeal.main_v73) = Cert.Activations.refSigmoidArr (Ur (Proc.devRef .tc Cert.ReferenceIdeal.main_v64)) (Ur (Proc.devRef .tc Cert.ReferenceIdeal.main_arg6))
      Cert.ReferenceIdeal.Facts₀.bcast_S1_S1x1_1 Cert.ReferenceIdeal.Facts₀.bcast_S1x1_S100000x1_0_1
      (broadcastInDim Cert.ReferenceIdeal.S100000x1 ![] Cert.ReferenceIdeal.Facts₀.bcast_S_S100000x1 (constant (F := Ideal) Cert.ReferenceIdeal.S_ .f32 0x3F800000#32)) := by
  dsimp only [Cert.ReferenceIdeal.RefRun.seg7]
  after_results_simp
  unfold Cert.Activations.refSigmoidArr
  rfl

/-! ## Stage 4: the first bias and activation -/

theorem s4_v49 (h : Agree m c V') : W6 m ρ c (Proc.devRef .tc Cert.KernelIdeal.main_v49) = R4 V' (Proc.devRef .tc Cert.ReferenceIdeal.main_v51) := by
  have hk : W6 m ρ c (Proc.devRef .tc Cert.KernelIdeal.main_v49) = Cert.KernelIdeal.Region1.whole (R3 V' (Proc.devRef .tc Cert.ReferenceIdeal.main_v47)) (shapeCast ⟨2, ![1, 64]⟩ (m ((c : Thread Cert.KernelIdeal.nD Cert.KernelIdeal.τ).loc Cert.KernelIdeal.main_arg4)) Cert.KernelIdeal.Facts₀.shapeCasts_S64_S1x64) := by
    rw [show W6 m ρ c (Proc.devRef .tc Cert.KernelIdeal.main_v49) = _ from W6_arr m ρ c 2, Cert.KernelIdeal.Region1.final]
    show Cert.KernelIdeal.Region1.whole (W5 m ρ c (Proc.devRef .tc Cert.KernelIdeal.main_v47)) (W5 m ρ c (Proc.devRef .tc Cert.KernelIdeal.main_v48)) = _
    rw [s3_v47 m ρ c V' h, s3_v48]
  have ha4 : R3 V' (Proc.devRef .tc Cert.ReferenceIdeal.main_arg4) = m ((c : Thread Cert.KernelIdeal.nD Cert.KernelIdeal.τ).loc Cert.KernelIdeal.main_arg4) :=
    (r32_arg4 V').trans ((r21_arg4 V').trans ((r1_arg4 V').trans h.a4))
  have hr : R4 V' (Proc.devRef .tc Cert.ReferenceIdeal.main_v51) = Cert.Activations.refEluArr (R3 V' (Proc.devRef .tc Cert.ReferenceIdeal.main_v47)) (R3 V' (Proc.devRef .tc Cert.ReferenceIdeal.main_arg4))
      Cert.ReferenceIdeal.Facts₀.bcast_S64_S1x64_1 Cert.ReferenceIdeal.Facts₀.bcast_S1x64_S100000x64_0_1
      (broadcastInDim Cert.ReferenceIdeal.S100000x64 ![] Cert.ReferenceIdeal.Facts₀.bcast_S_S100000x64 (constant (F := Ideal) Cert.ReferenceIdeal.S_ .f32 0x00000000#32))
      (broadcastInDim Cert.ReferenceIdeal.S100000x64 ![] Cert.ReferenceIdeal.Facts₀.bcast_S_S100000x64 (constant (F := Ideal) Cert.ReferenceIdeal.S_ .f32 0x3F800000#32)) := by
    unfold R4; exact elu_ref (R3 V')
  rw [hk, hr, ha4]
  exact (Cert.Activations.elu_arrays _ _ _ _ Cert.KernelIdeal.Facts₀.shapeCasts_S64_S1x64 _ _ (fun _ => rfl) (fun _ => rfl)).symm

/-! ## Stage 5: the second product -/

theorem s5_v50 (h : Agree m c V') : W7 m ρ c (Proc.devRef .tc Cert.KernelIdeal.main_v50) = R5 V' (Proc.devRef .tc Cert.ReferenceIdeal.main_v52) := by
  have ka5 : W6 m ρ c (Proc.devRef .tc Cert.KernelIdeal.main_arg5) = m ((c : Thread Cert.KernelIdeal.nD Cert.KernelIdeal.τ).loc Cert.KernelIdeal.main_arg5) :=
    (k65_arg5 m ρ c).trans ((k54_arg5 m ρ c).trans ((k43_arg5 m ρ c).trans (w3_arg5 m ρ c)))
  have ra5 : R4 V' (Proc.devRef .tc Cert.ReferenceIdeal.main_arg5) = m ((c : Thread Cert.KernelIdeal.nD Cert.KernelIdeal.τ).loc Cert.KernelIdeal.main_arg5) :=
    (r43_arg5 V').trans ((r32_arg5 V').trans ((r21_arg5 V').trans ((r1_arg5 V').trans h.a5)))
  have hk : W7 m ρ c (Proc.devRef .tc Cert.KernelIdeal.main_v50) = ExactProduct.mm (M := 100000) (K := 64) (N := 1) (R4 V' (Proc.devRef .tc Cert.ReferenceIdeal.main_v51)) (m ((c : Thread Cert.KernelIdeal.nD Cert.KernelIdeal.τ).loc Cert.KernelIdeal.main_arg5)) := by
    rw [show W7 m ρ c (Proc.devRef .tc Cert.KernelIdeal.main_v50) = _ from W7_arr m ρ c 2, Cert.KernelIdeal.Region2.final]
    show ExactProduct.mm (M := 100000) (K := 64) (N := 1) (W6 m ρ c (Proc.devRef .tc Cert.KernelIdeal.main_v49)) (W6 m ρ c (Proc.devRef .tc Cert.KernelIdeal.main_arg5)) = _
    rw [s4_v49 m ρ c V' h, ka5]
  have hr : R5 V' (Proc.devRef .tc Cert.ReferenceIdeal.main_v52) = ExactProduct.mm (M := 100000) (K := 64) (N := 1) (R4 V' (Proc.devRef .tc Cert.ReferenceIdeal.main_v51)) (m ((c : Thread Cert.KernelIdeal.nD Cert.KernelIdeal.τ).loc Cert.KernelIdeal.main_arg5)) := by
    unfold R5; dsimp only [Cert.ReferenceIdeal.RefRun.seg5]; after_results_simp
    rw [ra5]
    exact ExactProduct.hostDot_eq_mm _ rfl none _ _
  rw [hk, hr]

/-! ## Stage 6: the second aggregation -/

attribute [local irreducible] Host.scatterAdd Host.gather in
theorem s6_v62 (h : Agree m c V') : W8 m ρ c (Proc.devRef .tc Cert.KernelIdeal.main_v62) = R6 V' (Proc.devRef .tc Cert.ReferenceIdeal.main_v64) := by
  have e50 := s5_v50 m ρ c V' h
  have e_v3 : W7 m ρ c (Proc.devRef .tc Cert.KernelIdeal.main_v3) = R5 V' (Proc.devRef .tc Cert.ReferenceIdeal.main_v3) :=
    (k76_v3 m ρ c).trans ((k65_v3 m ρ c).trans ((k54_v3 m ρ c).trans ((k43_v3 m ρ c).trans ((s1_v3 m ρ c V' h).trans
      ((r54_v3 V').trans ((r43_v3 V').trans ((r32_v3 V').trans (r21_v3 V')))).symm))))
  have e_v6 : W7 m ρ c (Proc.devRef .tc Cert.KernelIdeal.main_v6) = R5 V' (Proc.devRef .tc Cert.ReferenceIdeal.main_v6) :=
    (k76_v6 m ρ c).trans ((k65_v6 m ρ c).trans ((k54_v6 m ρ c).trans ((k43_v6 m ρ c).trans ((s1_v6 m ρ c V' h).trans
      ((r54_v6 V').trans ((r43_v6 V').trans ((r32_v6 V').trans (r21_v6 V')))).symm))))
  have e_v33 : W7 m ρ c (Proc.devRef .tc Cert.KernelIdeal.main_v33) = R5 V' (Proc.devRef .tc Cert.ReferenceIdeal.main_v33) :=
    (k76_v33 m ρ c).trans ((k65_v33 m ρ c).trans ((k54_v33 m ρ c).trans ((k43_v33 m ρ c).trans ((s1_v33 m ρ c V' h).trans
      ((r54_v33 V').trans ((r43_v33 V').trans ((r32_v33 V').trans (r21_v33 V')))).symm))))
  unfold R6; dsimp only [W8, hostOps3, Cert.ReferenceIdeal.RefRun.seg6]; after_results_simp
  rw [e50, e_v3, e_v6, e_v33]
  rfl

/-- The second bias as the kernel lays it out. -/
theorem s6_v63 : W8 m ρ c (Proc.devRef .tc Cert.KernelIdeal.main_v63) = shapeCast ⟨2, ![1, 1]⟩ (m ((c : Thread Cert.KernelIdeal.nD Cert.KernelIdeal.τ).loc Cert.KernelIdeal.main_arg6)) Cert.KernelIdeal.Facts₀.shapeCasts_S1_S1x1 := by
  have e : W7 m ρ c (Proc.devRef .tc Cert.KernelIdeal.main_arg6) = m ((c : Thread Cert.KernelIdeal.nD Cert.KernelIdeal.τ).loc Cert.KernelIdeal.main_arg6) :=
    (k76_arg6 m ρ c).trans ((k65_arg6 m ρ c).trans ((k54_arg6 m ρ c).trans ((k43_arg6 m ρ c).trans (w3_arg6 m ρ c))))
  dsimp only [W8, hostOps3]; after_results_simp
  rw [e]
  rfl

/-! ## Stage 7: the second bias and activation — the result -/

theorem result_eq (h : Agree m c V') :
    W9 m ρ c (Proc.devRef .tc Cert.KernelIdeal.main_v64) = after (Cert.ReferenceIdeal.RefRun.ops (F := Ideal)) V' (Proc.devRef .tc Cert.ReferenceIdeal.main_v73) := by
  rw [after_ops_eq]
  have hk : W9 m ρ c (Proc.devRef .tc Cert.KernelIdeal.main_v64) = Cert.KernelIdeal.Region3.whole (R6 V' (Proc.devRef .tc Cert.ReferenceIdeal.main_v64)) (shapeCast ⟨2, ![1, 1]⟩ (m ((c : Thread Cert.KernelIdeal.nD Cert.KernelIdeal.τ).loc Cert.KernelIdeal.main_arg6)) Cert.KernelIdeal.Facts₀.shapeCasts_S1_S1x1) := by
    rw [show W9 m ρ c (Proc.devRef .tc Cert.KernelIdeal.main_v64) = _ from W9_arr m ρ c 2, Cert.KernelIdeal.Region3.final]
    show Cert.KernelIdeal.Region3.whole (W8 m ρ c (Proc.devRef .tc Cert.KernelIdeal.main_v62)) (W8 m ρ c (Proc.devRef .tc Cert.KernelIdeal.main_v63)) = _
    rw [s6_v62 m ρ c V' h, s6_v63]
  have ra6 : R6 V' (Proc.devRef .tc Cert.ReferenceIdeal.main_arg6) = m ((c : Thread Cert.KernelIdeal.nD Cert.KernelIdeal.τ).loc Cert.KernelIdeal.main_arg6) :=
    (r65_arg6 V').trans ((r54_arg6 V').trans ((r43_arg6 V').trans ((r32_arg6 V').trans ((r21_arg6 V').trans ((r1_arg6 V').trans h.a6)))))
  have hr : R7 V' (Proc.devRef .tc Cert.ReferenceIdeal.main_v73) = Cert.Activations.refSigmoidArr (R6 V' (Proc.devRef .tc Cert.ReferenceIdeal.main_v64)) (R6 V' (Proc.devRef .tc Cert.ReferenceIdeal.main_arg6))
      Cert.ReferenceIdeal.Facts₀.bcast_S1_S1x1_1 Cert.ReferenceIdeal.Facts₀.bcast_S1x1_S100000x1_0_1
      (broadcastInDim Cert.ReferenceIdeal.S100000x1 ![] Cert.ReferenceIdeal.Facts₀.bcast_S_S100000x1 (constant (F := Ideal) Cert.ReferenceIdeal.S_ .f32 0x3F800000#32)) := by
    unfold R7; exact sigmoid_ref (R6 V')
  rw [hk, hr, ra6]
  exact (Cert.Activations.sigmoid_arrays _ _ _ _ Cert.KernelIdeal.Facts₀.shapeCasts_S1_S1x1 _ (fun _ => rfl)).symm

end Cert.Sim

end
-- ==== Proof.lean ====
/-
  A two-layer graph convolution — out = sigmoid(Â·(elu(Â·(x·W1) + b1)·W2) + b2), Â the symmetrically normalized adjacency
  with self loops, applied as a gather of source rows and a sum at target rows — as a program of four row-tiled kernels (the
  two dense products; bias + exponential linear unit; bias + logistic function) among host scatter / gather stretches,
  against the plain reference. On the extended reals the two programs compute the same array:
    · the graph preparation and the two aggregations are the same host operations on both sides;
    · a row-tiled product into a zero accumulator and the host's whole contraction are both Σ_k x(r,k)·w(k,c), and a
      change of float format is the identity;
    · the reference's elu, where(v > 0, v, 1·expm1(where(v > 0, 0, v))), is the kernel's where(v > 0, v, e^v − 1), because
      expm1 v = e^v − 1 and 1·z = z; its logistic 1/(1 + e^(−v)) is the kernel's 1/(1 + e^(0 − v)).
  None of these identities needs a finite operand, so the precondition is never opened. The frames of the two kernel
  programs are the generated ones; the reference's frame is its straight-line run with the result dropped; the ideal pass
  rewrote nothing, so `preserves` is trivial.
-/
import proofs.«169478_j1786706395263_1_alg».proof.Defs
import proofs.«169478_j1786706395263_1_alg».proof.Proof.Gen.Kernel
import proofs.«169478_j1786706395263_1_alg».proof.Proof.Gen.Kernel.Frame
import proofs.«169478_j1786706395263_1_alg».proof.Proof.Gen.KernelIdeal
import proofs.«169478_j1786706395263_1_alg».proof.Proof.Gen.KernelIdeal.Frame
import proofs.«169478_j1786706395263_1_alg».proof.Proof.Gen.ReferenceIdeal
import proofs.«169478_j1786706395263_1_alg».proof.Proof.Gen.Pre_finite_inputs
import proofs.«169478_j1786706395263_1_alg».proof.Proof.KernelRun
import proofs.«169478_j1786706395263_1_alg».proof.Proof.RefRun
import proofs.«169478_j1786706395263_1_alg».proof.Proof.RefKept
import proofs.«169478_j1786706395263_1_alg».proof.Proof.Sim
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run read at the argument arrays, which no operation writes. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.RefRun.kept_arg0 _),
     (h c Cert.ReferenceIdeal.main_arg1).trans (Cert.ReferenceIdeal.RefRun.kept_arg1 _),
     (h c Cert.ReferenceIdeal.main_arg2).trans (Cert.ReferenceIdeal.RefRun.kept_arg2 _),
     (h c Cert.ReferenceIdeal.main_arg3).trans (Cert.ReferenceIdeal.RefRun.kept_arg3 _),
     (h c Cert.ReferenceIdeal.main_arg4).trans (Cert.ReferenceIdeal.RefRun.kept_arg4 _),
     (h c Cert.ReferenceIdeal.main_arg5).trans (Cert.ReferenceIdeal.RefRun.kept_arg5 _),
     (h c Cert.ReferenceIdeal.main_arg6).trans (Cert.ReferenceIdeal.RefRun.kept_arg6 _)⟩)
    (Cert.ReferenceIdeal.RefRun.run_main (F := Ideal) m ρ)

/-- Both idealized programs end with the same result array: the kernel's last boundary contents at its result buffer,
    which the simulation shows to be the reference's fold at its result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W9 m ρ c (Proc.devRef .tc Cert.KernelIdeal.main_v64), ?_, ?_⟩
  · exact (θ_run Cert.KernelIdeal.defs _ _).mono (fun r h c =>
      ⟨h c Cert.KernelIdeal.main_v64 (by decide),
       (h c Cert.KernelIdeal.main_arg0 (by decide)).trans (Cert.KernelIdeal.Gen.W9_main_arg0 m ρ c),
       (h c Cert.KernelIdeal.main_arg1 (by decide)).trans (Cert.KernelIdeal.Gen.W9_main_arg1 m ρ c),
       (h c Cert.KernelIdeal.main_arg2 (by decide)).trans (Cert.KernelIdeal.Gen.W9_main_arg2 m ρ c),
       (h c Cert.KernelIdeal.main_arg3 (by decide)).trans (Cert.KernelIdeal.Gen.W9_main_arg3 m ρ c),
       (h c Cert.KernelIdeal.main_arg4 (by decide)).trans (Cert.KernelIdeal.Gen.W9_main_arg4 m ρ c),
       (h c Cert.KernelIdeal.main_arg5 (by decide)).trans (Cert.KernelIdeal.Gen.W9_main_arg5 m ρ c),
       (h c Cert.KernelIdeal.main_arg6 (by decide)).trans (Cert.KernelIdeal.Gen.W9_main_arg6 m ρ c)⟩)
      (Cert.KernelIdeal.KRun.run_all m ρ)
  · exact (θ_run Cert.ReferenceIdeal.defs _ _).mono (fun r h c =>
      ⟨(h c Cert.ReferenceIdeal.main_v73).trans
        (Cert.Sim.result_eq m ρ c (launchContents m' c)
          ⟨(hagree c).1, (hagree c).2.1, (hagree c).2.2.1, (hagree c).2.2.2.1, (hagree c).2.2.2.2.1, (hagree c).2.2.2.2.2.1, (hagree c).2.2.2.2.2.2⟩).symm,
       (h c Cert.ReferenceIdeal.main_arg0).trans (Cert.ReferenceIdeal.RefRun.kept_arg0 _),
       (h c Cert.ReferenceIdeal.main_arg1).trans (Cert.ReferenceIdeal.RefRun.kept_arg1 _),
       (h c Cert.ReferenceIdeal.main_arg2).trans (Cert.ReferenceIdeal.RefRun.kept_arg2 _),
       (h c Cert.ReferenceIdeal.main_arg3).trans (Cert.ReferenceIdeal.RefRun.kept_arg3 _),
       (h c Cert.ReferenceIdeal.main_arg4).trans (Cert.ReferenceIdeal.RefRun.kept_arg4 _),
       (h c Cert.ReferenceIdeal.main_arg5).trans (Cert.ReferenceIdeal.RefRun.kept_arg5 _),
       (h c Cert.ReferenceIdeal.main_arg6).trans (Cert.ReferenceIdeal.RefRun.kept_arg6 _)⟩)
      (Cert.ReferenceIdeal.RefRun.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
